-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S100000x256 : Shape := ⟨2, ![100000, 256]⟩
abbrev S2000x128 : Shape := ⟨2, ![2000, 128]⟩
abbrev S2000x256 : Shape := ⟨2, ![2000, 256]⟩
abbrev S740000x256 : Shape := ⟨2, ![740000, 256]⟩
abbrev S1x256 : Shape := ⟨2, ![1, 256]⟩

abbrev nBuf : Space → Nat
  | .hbm => 105
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S100000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S1x640000, .i32⟩
  | .hbm, ⟨13, _⟩ => ⟨S640000, .i32⟩
  | .hbm, ⟨14, _⟩ => ⟨S740000, .i32⟩
  | .hbm, ⟨15, _⟩ => ⟨S_, .f32⟩
  | .hbm, ⟨16, _⟩ => ⟨S740000, .f32⟩
  | .hbm, ⟨17, _⟩ => ⟨S_, .f32⟩
  | .hbm, ⟨18, _⟩ => ⟨S100000, .f32⟩
  | .hbm, ⟨19, _⟩ => ⟨S740000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S740000, .i32⟩
  | .hbm, ⟨31, _⟩ => ⟨S740000, .i1⟩
  | .hbm, ⟨32, _⟩ => ⟨S_, .i32⟩
  | .hbm, ⟨33, _⟩ => ⟨S740000, .i32⟩
  | .hbm, ⟨34, _⟩ => ⟨S740000, .i32⟩
  | .hbm, ⟨35, _⟩ => ⟨S740000, .i32⟩
  | .hbm, ⟨36, _⟩ => ⟨S740000x1, .i32⟩
  | .hbm, ⟨37, _⟩ => ⟨S740000, .f32⟩
  | .hbm, ⟨38, _⟩ => ⟨S_, .i32⟩
  | .hbm, ⟨39, _⟩ => ⟨S740000, .i32⟩
  | .hbm, ⟨40, _⟩ => ⟨S740000, .i1⟩
  | .hbm, ⟨41, _⟩ => ⟨S_, .i32⟩
  | .hbm, ⟨42, _⟩ => ⟨S740000, .i32⟩
  | .hbm, ⟨43, _⟩ => ⟨S740000, .i32⟩
  | .hbm, ⟨44, _⟩ => ⟨S740000, .i32⟩
  | .hbm, ⟨45, _⟩ => ⟨S740000x1, .i32⟩
  | .hbm, ⟨46, _⟩ => ⟨S740000, .f32⟩
  | .hbm, ⟨47, _⟩ => ⟨S740000, .f32⟩
  | .hbm, ⟨48, _⟩ => ⟨S100000x256, .f32⟩
  | .hbm, ⟨49, _⟩ => ⟨S_, .i32⟩
  | .hbm, ⟨50, _⟩ => ⟨S740000, .i32⟩
  | .hbm, ⟨51, _⟩ => ⟨S740000, .i1⟩
  | .hbm, ⟨52, _⟩ => ⟨S_, .i32⟩
  | .hbm, ⟨53, _⟩ => ⟨S740000, .i32⟩
  | .hbm, ⟨54, _⟩ => ⟨S740000, .i32⟩
  | .hbm, ⟨55, _⟩ => ⟨S740000, .i32⟩
  | .hbm, ⟨56, _⟩ => ⟨S740000x1, .i32⟩
  | .hbm, ⟨57, _⟩ => ⟨S740000x256, .f32⟩
  | .hbm, ⟨58, _⟩ => ⟨S740000x1, .f32⟩
  | .hbm, ⟨59, _⟩ => ⟨S740000x256, .f32⟩
  | .hbm, ⟨60, _⟩ => ⟨S740000x256, .f32⟩
  | .hbm, ⟨61, _⟩ => ⟨S_, .f32⟩
  | .hbm, ⟨62, _⟩ => ⟨S100000x256, .f32⟩
  | .hbm, ⟨63, _⟩ => ⟨S740000x1, .i32⟩
  | .hbm, ⟨64, _⟩ => ⟨S100000x256, .f32⟩
  | .hbm, ⟨65, _⟩ => ⟨S1x256, .f32⟩
  | .hbm, ⟨66, _⟩ => ⟨S100000x256, .f32⟩
  | .hbm, ⟨67, _⟩ => ⟨S100000x256, .f32⟩
  | .hbm, ⟨68, _⟩ => ⟨S_, .i32⟩
  | .hbm, ⟨69, _⟩ => ⟨S740000, .i32⟩
  | .hbm, ⟨70, _⟩ => ⟨S740000, .i1⟩
  | .hbm, ⟨71, _⟩ => ⟨S_, .i32⟩
  | .hbm, ⟨72, _⟩ => ⟨S740000, .i32⟩
  | .hbm, ⟨73, _⟩ => ⟨S740000, .i32⟩
  | .hbm, ⟨74, _⟩ => ⟨S740000, .i32⟩
  | .hbm, ⟨75, _⟩ => ⟨S740000x1, .i32⟩
  | .hbm, ⟨76, _⟩ => ⟨S740000x256, .f32⟩
  | .hbm, ⟨77, _⟩ => ⟨S740000x1, .f32⟩
  | .hbm, ⟨78, _⟩ => ⟨S740000x256, .f32⟩
  | .hbm, ⟨79, _⟩ => ⟨S740000x256, .f32⟩
  | .hbm, ⟨80, _⟩ => ⟨S_, .f32⟩
  | .hbm, ⟨81, _⟩ => ⟨S100000x256, .f32⟩
  | .hbm, ⟨82, _⟩ => ⟨S740000x1, .i32⟩
  | .hbm, ⟨83, _⟩ => ⟨S100000x256, .f32⟩
  | .hbm, ⟨84, _⟩ => ⟨S1x256, .f32⟩
  | .hbm, ⟨85, _⟩ => ⟨S100000x256, .f32⟩
  | .hbm, ⟨86, _⟩ => ⟨S100000x256, .f32⟩
  | .hbm, ⟨87, _⟩ => ⟨S_, .i32⟩
  | .hbm, ⟨88, _⟩ => ⟨S740000, .i32⟩
  | .hbm, ⟨89, _⟩ => ⟨S740000, .i1⟩
  | .hbm, ⟨90, _⟩ => ⟨S_, .i32⟩
  | .hbm, ⟨91, _⟩ => ⟨S740000, .i32⟩
  | .hbm, ⟨92, _⟩ => ⟨S740000, .i32⟩
  | .hbm, ⟨93, _⟩ => ⟨S740000, .i32⟩
  | .hbm, ⟨94, _⟩ => ⟨S740000x1, .i32⟩
  | .hbm, ⟨95, _⟩ => ⟨S740000x256, .f32⟩
  | .hbm, ⟨96, _⟩ => ⟨S740000x1, .f32⟩
  | .hbm, ⟨97, _⟩ => ⟨S740000x256, .f32⟩
  | .hbm, ⟨98, _⟩ => ⟨S740000x256, .f32⟩
  | .hbm, ⟨99, _⟩ => ⟨S_, .f32⟩
  | .hbm, ⟨100, _⟩ => ⟨S100000x256, .f32⟩
  | .hbm, ⟨101, _⟩ => ⟨S740000x1, .i32⟩
  | .hbm, ⟨102, _⟩ => ⟨S100000x256, .f32⟩
  | .hbm, ⟨103, _⟩ => ⟨S1x256, .f32⟩
  | .hbm, ⟨104, _⟩ => ⟨S100000x256, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S740000x1_S740000x256_0_1 : S740000x1.BroadcastsInDim S740000x256 (![0, 1] : Fin 2 → Fin S740000x256.rank)
  bcast_S_S100000x256 : S_.BroadcastsInDim S100000x256 (![] : Fin 0 → Fin S100000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S2000x128_S128x256_S2000x256_1_0_0_1_n_n_wf : DotDims.WF S2000x128 S128x256 S2000x256 [1] [0] [0] [1] [] []
  gather_S100000x256_S740000x1_S740000x256_1_0_n_n_0_1_1256_wf : GatherDims.WF S100000x256 S740000x1 S740000x256 [1] [0] [] [0] [] 1 ![1, 256]
  scatter_S100000x256_S740000x1_S740000x256_1_0_0_1_wf : ScatterDims.WF S100000x256 S740000x1 S740000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S100000x256.size a
  hwx1_2 : ∀ i : grid1.Coords, EltTy.bits .f32 = 32 ∨ (Rect.block (s := S100000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S100000x256.size a
  hwx2_2 : ∀ i : grid2.Coords, EltTy.bits .f32 = 32 ∨ (Rect.block (s := S100000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S100000x256.size a
  hwx3_2 : ∀ i : grid3.Coords, EltTy.bits .f32 = 32 ∨ (Rect.block (s := S100000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S100000x256.size a
  hwx4_2 : ∀ i : grid4.Coords, EltTy.bits .f32 = 32 ∨ (Rect.block (s := S100000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S100000x256.size a
  hwx5_2 : ∀ i : grid5.Coords, EltTy.bits .f32 = 32 ∨ (Rect.block (s := S100000x256) S2000x256.size (cc5_transform_2 i) (hinb5_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S740000x1_S740000x256_1_0_n_n_0_1_1256 : GatherDims S100000x256 S740000x1 S740000x256 where
  offsetDims := [1]
  collapsedSliceDims := [0]
  operandBatchingDims := []
  startIndicesBatchingDims := []
  startIndexMap := [0]
  indexVectorDim := 1
  sliceSizes := ![1, 256]
  wf := gather_S100000x256_S740000x1_S740000x256_1_0_n_n_0_1_1256_wf
def scatter_S100000x256_S740000x1_S740000x256_1_0_0_1 : ScatterDims S100000x256 S740000x1 S740000x256 where
  updateWindowDims := [1]
  insertedWindowDims := [0]
  scatterDimsToOperandDims := [0]
  indexVectorDim := 1
  wf := scatter_S100000x256_S740000x1_S740000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S2000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S100000x256 : Shape := ⟨2, ![100000, 256]⟩
abbrev S740000x256 : Shape := ⟨2, ![740000, 256]⟩
abbrev S1x256 : Shape := ⟨2, ![1, 256]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S100000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S1x640000, .i32⟩
  | .hbm, ⟨13, _⟩ => ⟨S640000, .i32⟩
  | .hbm, ⟨14, _⟩ => ⟨S740000, .i32⟩
  | .hbm, ⟨15, _⟩ => ⟨S_, .f32⟩
  | .hbm, ⟨16, _⟩ => ⟨S740000, .f32⟩
  | .hbm, ⟨17, _⟩ => ⟨S_, .f32⟩
  | .hbm, ⟨18, _⟩ => ⟨S100000, .f32⟩
  | .hbm, ⟨19, _⟩ => ⟨S740000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S740000, .i32⟩
  | .hbm, ⟨31, _⟩ => ⟨S740000, .i1⟩
  | .hbm, ⟨32, _⟩ => ⟨S_, .i32⟩
  | .hbm, ⟨33, _⟩ => ⟨S740000, .i32⟩
  | .hbm, ⟨34, _⟩ => ⟨S740000, .i32⟩
  | .hbm, ⟨35, _⟩ => ⟨S740000, .i32⟩
  | .hbm, ⟨36, _⟩ => ⟨S740000x1, .i32⟩
  | .hbm, ⟨37, _⟩ => ⟨S740000, .f32⟩
  | .hbm, ⟨38, _⟩ => ⟨S_, .i32⟩
  | .hbm, ⟨39, _⟩ => ⟨S740000, .i32⟩
  | .hbm, ⟨40, _⟩ => ⟨S740000, .i1⟩
  | .hbm, ⟨41, _⟩ => ⟨S_, .i32⟩
  | .hbm, ⟨42, _⟩ => ⟨S740000, .i32⟩
  | .hbm, ⟨43, _⟩ => ⟨S740000, .i32⟩
  | .hbm, ⟨44, _⟩ => ⟨S740000, .i32⟩
  | .hbm, ⟨45, _⟩ => ⟨S740000x1, .i32⟩
  | .hbm, ⟨46, _⟩ => ⟨S740000, .f32⟩
  | .hbm, ⟨47, _⟩ => ⟨S740000, .f32⟩
  | .hbm, ⟨48, _⟩ => ⟨S100000x256, .f32⟩
  | .hbm, ⟨49, _⟩ => ⟨S_, .i32⟩
  | .hbm, ⟨50, _⟩ => ⟨S740000, .i32⟩
  | .hbm, ⟨51, _⟩ => ⟨S740000, .i1⟩
  | .hbm, ⟨52, _⟩ => ⟨S_, .i32⟩
  | .hbm, ⟨53, _⟩ => ⟨S740000, .i32⟩
  | .hbm, ⟨54, _⟩ => ⟨S740000, .i32⟩
  | .hbm, ⟨55, _⟩ => ⟨S740000, .i32⟩
  | .hbm, ⟨56, _⟩ => ⟨S740000x1, .i32⟩
  | .hbm, ⟨57, _⟩ => ⟨S740000x256, .f32⟩
  | .hbm, ⟨58, _⟩ => ⟨S740000x1, .f32⟩
  | .hbm, ⟨59, _⟩ => ⟨S740000x256, .f32⟩
  | .hbm, ⟨60, _⟩ => ⟨S740000x256, .f32⟩
  | .hbm, ⟨61, _⟩ => ⟨S_, .f32⟩
  | .hbm, ⟨62, _⟩ => ⟨S100000x256, .f32⟩
  | .hbm, ⟨63, _⟩ => ⟨S740000x1, .i32⟩
  | .hbm, ⟨64, _⟩ => ⟨S100000x256, .f32⟩
  | .hbm, ⟨65, _⟩ => ⟨S1x256, .f32⟩
  | .hbm, ⟨66, _⟩ => ⟨S100000x256, .f32⟩
  | .hbm, ⟨67, _⟩ => ⟨S100000x256, .f32⟩
  | .hbm, ⟨68, _⟩ => ⟨S_, .f32⟩
  | .hbm, ⟨69, _⟩ => ⟨S100000x256, .f32⟩
  | .hbm, ⟨70, _⟩ => ⟨S100000x256, .f32⟩
  | .hbm, ⟨71, _⟩ => ⟨S100000x256, .f32⟩
  | .hbm, ⟨72, _⟩ => ⟨S_, .i32⟩
  | .hbm, ⟨73, _⟩ => ⟨S740000, .i32⟩
  | .hbm, ⟨74, _⟩ => ⟨S740000, .i1⟩
  | .hbm, ⟨75, _⟩ => ⟨S_, .i32⟩
  | .hbm, ⟨76, _⟩ => ⟨S740000, .i32⟩
  | .hbm, ⟨77, _⟩ => ⟨S740000, .i32⟩
  | .hbm, ⟨78, _⟩ => ⟨S740000, .i32⟩
  | .hbm, ⟨79, _⟩ => ⟨S740000x1, .i32⟩
  | .hbm, ⟨80, _⟩ => ⟨S740000x256, .f32⟩
  | .hbm, ⟨81, _⟩ => ⟨S740000x1, .f32⟩
  | .hbm, ⟨82, _⟩ => ⟨S740000x256, .f32⟩
  | .hbm, ⟨83, _⟩ => ⟨S740000x256, .f32⟩
  | .hbm, ⟨84, _⟩ => ⟨S_, .f32⟩
  | .hbm, ⟨85, _⟩ => ⟨S100000x256, .f32⟩
  | .hbm, ⟨86, _⟩ => ⟨S740000x1, .i32⟩
  | .hbm, ⟨87, _⟩ => ⟨S100000x256, .f32⟩
  | .hbm, ⟨88, _⟩ => ⟨S1x256, .f32⟩
  | .hbm, ⟨89, _⟩ => ⟨S100000x256, .f32⟩
  | .hbm, ⟨90, _⟩ => ⟨S100000x256, .f32⟩
  | .hbm, ⟨91, _⟩ => ⟨S_, .f32⟩
  | .hbm, ⟨92, _⟩ => ⟨S100000x256, .f32⟩
  | .hbm, ⟨93, _⟩ => ⟨S100000x256, .f32⟩
  | .hbm, ⟨94, _⟩ => ⟨S100000x256, .f32⟩
  | .hbm, ⟨95, _⟩ => ⟨S_, .i32⟩
  | .hbm, ⟨96, _⟩ => ⟨S740000, .i32⟩
  | .hbm, ⟨97, _⟩ => ⟨S740000, .i1⟩
  | .hbm, ⟨98, _⟩ => ⟨S_, .i32⟩
  | .hbm, ⟨99, _⟩ => ⟨S740000, .i32⟩
  | .hbm, ⟨100, _⟩ => ⟨S740000, .i32⟩
  | .hbm, ⟨101, _⟩ => ⟨S740000, .i32⟩
  | .hbm, ⟨102, _⟩ => ⟨S740000x1, .i32⟩
  | .hbm, ⟨103, _⟩ => ⟨S740000x256, .f32⟩
  | .hbm, ⟨104, _⟩ => ⟨S740000x1, .f32⟩
  | .hbm, ⟨105, _⟩ => ⟨S740000x256, .f32⟩
  | .hbm, ⟨106, _⟩ => ⟨S740000x256, .f32⟩
  | .hbm, ⟨107, _⟩ => ⟨S_, .f32⟩
  | .hbm, ⟨108, _⟩ => ⟨S100000x256, .f32⟩
  | .hbm, ⟨109, _⟩ => ⟨S740000x1, .i32⟩
  | .hbm, ⟨110, _⟩ => ⟨S100000x256, .f32⟩
  | .hbm, ⟨111, _⟩ => ⟨S1x256, .f32⟩
  | .hbm, ⟨112, _⟩ => ⟨S100000x256, .f32⟩
  | .hbm, ⟨113, _⟩ => ⟨S100000x256, .f32⟩
  | .hbm, ⟨114, _⟩ => ⟨S_, .f32⟩
  | .hbm, ⟨115, _⟩ => ⟨S100000x256, .f32⟩
  | .hbm, ⟨116, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_v83 : Ref sig .tc := ⟨.hbm, 116, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x256_0_1 : S740000x1.BroadcastsInDim S740000x256 (![0, 1] : Fin 2 → Fin S740000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x256_S100000x256_1_0_0_1_n_n_wf : DotDims.WF S100000x128 S128x256 S100000x256 [1] [0] [0] [1] [] []
  gather_S100000x256_S740000x1_S740000x256_1_0_n_n_0_1_1256_wf : GatherDims.WF S100000x256 S740000x1 S740000x256 [1] [0] [] [0] [] 1 ![1, 256]
  scatter_S100000x256_S740000x1_S740000x256_1_0_0_1_wf : ScatterDims.WF S100000x256 S740000x1 S740000x256 [1] [0] [0] 1
  dot_S100000x256_S256x256_S100000x256_1_0_0_1_n_n_wf : DotDims.WF S100000x256 S256x256 S100000x256 [1] [0] [0] [1] [] []

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S740000x1_S740000x256_1_0_n_n_0_1_1256 : GatherDims S100000x256 S740000x1 S740000x256 where
  offsetDims := [1]
  collapsedSliceDims := [0]
  operandBatchingDims := []
  startIndicesBatchingDims := []
  startIndexMap := [0]
  indexVectorDim := 1
  sliceSizes := ![1, 256]
  wf := gather_S100000x256_S740000x1_S740000x256_1_0_n_n_0_1_1256_wf
def scatter_S100000x256_S740000x1_S740000x256_1_0_0_1 : ScatterDims S100000x256 S740000x1 S740000x256 where
  updateWindowDims := [1]
  insertedWindowDims := [0]
  scatterDimsToOperandDims := [0]
  indexVectorDim := 1
  wf := scatter_S100000x256_S740000x1_S740000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.KernelRun.lean ====
/-
  The idealized kernel's run with its result named.

  @main is twelve segments: six stretches of host operations and six kernel launches. The buffer contents at each
  boundary are a fold from the launch memory: a host stretch applies its operations, a launch replaces each of its
  arrays by what its write-backs leave and keeps every other buffer. Every weakly fair execution terminates in a
  state whose buffers are the last boundary's contents; read at the result buffer this says what the program
  returns, and read at the argument buffers that they are unchanged.
-/
import proofs.«170027_j4913442587201_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents there, and the eight argument arrays end as launched. -/
theorem run_main : θ_run defs (onTc (τ := τ) (main (F := F))) ⟨m, fun _ => 0, ρ⟩ (fun r => ∀ c : Dev nD,
      r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Run

end
-- ==== Proof.Carry.lean ====
/-
  What the host operations before the first launch compute, and what every later boundary keeps of it.

  Before the first launch the host builds, from the edge list alone, the source and destination index arrays with a
  self-loop appended for every node, the degree of every node as a scatter-add of ones, its inverse square root where the
  degree is positive, and the weight of every edge as the product of that quantity at its two ends. These are the same
  operations, in the same order and with the same literals, as the reference applies, so each array is the
  reference's stage of the same name. No later host operation and no launch writes them, nor the argument arrays:
  they are read back unchanged at every later boundary.
-/
import proofs.«170027_j4913442587201_1_alg».proof.Proof.Gen.KernelIdeal.Frame
import proofs.«170027_j4913442587201_1_alg».proof.Proof.RefRead

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The eight buffers the layers after a boundary still read: the source and destination index arrays with the
    self-loops appended, the edge weights, and the arguments of the later layers. -/
structure Keeps (c : Dev nD) (W : Valuation τ sig (Elt F)) : Prop where
  src : W (Proc.devRef .tc main_v3) = Cert.ReferenceIdeal.ReadP.val_main_v3 (m ((c.tc : Thread nD τ).loc main_arg1))
  dst : W (Proc.devRef .tc main_v6) = Cert.ReferenceIdeal.ReadP.val_main_v6 (m ((c.tc : Thread nD τ).loc main_arg1))
  wgt : W (Proc.devRef .tc main_v29) = Cert.ReferenceIdeal.ReadP.val_main_v29 (m ((c.tc : Thread nD τ).loc main_arg1))
  a3 : W (Proc.devRef .tc main_arg3) = m ((c.tc : Thread nD τ).loc main_arg3)
  a4 : W (Proc.devRef .tc main_arg4) = m ((c.tc : Thread nD τ).loc main_arg4)
  a5 : W (Proc.devRef .tc main_arg5) = m ((c.tc : Thread nD τ).loc main_arg5)
  a6 : W (Proc.devRef .tc main_arg6) = m ((c.tc : Thread nD τ).loc main_arg6)
  a7 : W (Proc.devRef .tc main_arg7) = m ((c.tc : Thread nD τ).loc main_arg7)

/-- Contents that agree with kept ones on the eight buffers are kept too. -/
theorem Keeps.of_eq {c : Dev nD} {W W' : Valuation τ sig (Elt F)} (h : Keeps m c W)
    (e3 : W' (Proc.devRef .tc main_v3) = W (Proc.devRef .tc main_v3))
    (e6 : W' (Proc.devRef .tc main_v6) = W (Proc.devRef .tc main_v6))
    (e29 : W' (Proc.devRef .tc main_v29) = W (Proc.devRef .tc main_v29))
    (ea3 : W' (Proc.devRef .tc main_arg3) = W (Proc.devRef .tc main_arg3))
    (ea4 : W' (Proc.devRef .tc main_arg4) = W (Proc.devRef .tc main_arg4))
    (ea5 : W' (Proc.devRef .tc main_arg5) = W (Proc.devRef .tc main_arg5))
    (ea6 : W' (Proc.devRef .tc main_arg6) = W (Proc.devRef .tc main_arg6))
    (ea7 : W' (Proc.devRef .tc main_arg7) = W (Proc.devRef .tc main_arg7)) : Keeps m c W' :=
  ⟨e3.trans h.src, e6.trans h.dst, e29.trans h.wgt, ea3.trans h.a3, ea4.trans h.a4, ea5.trans h.a5, ea6.trans h.a6, ea7.trans h.a7⟩

/-- A buffer that a stretch of host operations does not write holds after it what it held before. -/
macro "unwritten " ops:ident : tactic =>
  `(tactic| (show StableHlo.after $ops _ _ = _; simp only [$ops:ident]; after_results_simp))

/-- What a buffer holds after the three host stretches before the first launch, read off the launch memory. -/
macro "entry_contents" : tactic =>
  `(tactic| (show StableHlo.after hostOps0_2 (StableHlo.after hostOps0_1 (StableHlo.after hostOps0 (W0 _ _ _))) _ = _
             simp only [hostOps0, hostOps0_1, hostOps0_2]
             after_results_simp <;> rfl))

/-- At the first launch's entry the two operands are the argument arrays as launched. -/
theorem entry_arg0 (c : Dev nD) : W3 m ρ c (Proc.devRef .tc main_arg0) = m ((c.tc : Thread nD τ).loc main_arg0) := by entry_contents
theorem entry_arg2 (c : Dev nD) : W3 m ρ c (Proc.devRef .tc main_arg2) = m ((c.tc : Thread nD τ).loc main_arg2) := by entry_contents

/-- At the first launch's entry the index arrays and the edge weights are the reference's stages of the edge list, and
    the later arguments are as launched. -/
theorem keeps3 (c : Dev nD) : Keeps m c (W3 m ρ c) where
  src := by entry_contents
  dst := by entry_contents
  wgt := by entry_contents
  a3 := by entry_contents
  a4 := by entry_contents
  a5 := by entry_contents
  a6 := by entry_contents
  a7 := by entry_contents

/-- Launch 0 writes none of the kept buffers. -/
theorem keeps4 (c : Dev nD) (h : Keeps m c (W3 m ρ c)) : Keeps m c (W4 m ρ c) :=
  h.of_eq m (W4_of_ne m ρ c main_v3 (by decide))
    (W4_of_ne m ρ c main_v6 (by decide))
    (W4_of_ne m ρ c main_v29 (by decide))
    (W4_of_ne m ρ c main_arg3 (by decide))
    (W4_of_ne m ρ c main_arg4 (by decide))
    (W4_of_ne m ρ c main_arg5 (by decide))
    (W4_of_ne m ρ c main_arg6 (by decide))
    (W4_of_ne m ρ c main_arg7 (by decide))

/-- The host stretch between these two boundaries writes none of the kept buffers. -/
theorem keeps5 (c : Dev nD) (h : Keeps m c (W4 m ρ c)) : Keeps m c (W5 m ρ c) :=
  h.of_eq m (by unwritten hostOps1)
    (by unwritten hostOps1)
    (by unwritten hostOps1)
    (by unwritten hostOps1)
    (by unwritten hostOps1)
    (by unwritten hostOps1)
    (by unwritten hostOps1)
    (by unwritten hostOps1)

/-- Launch 1 writes none of the kept buffers. -/
theorem keeps6 (c : Dev nD) (h : Keeps m c (W5 m ρ c)) : Keeps m c (W6 m ρ c) :=
  h.of_eq m (W6_of_ne m ρ c main_v3 (by decide))
    (W6_of_ne m ρ c main_v6 (by decide))
    (W6_of_ne m ρ c main_v29 (by decide))
    (W6_of_ne m ρ c main_arg3 (by decide))
    (W6_of_ne m ρ c main_arg4 (by decide))
    (W6_of_ne m ρ c main_arg5 (by decide))
    (W6_of_ne m ρ c main_arg6 (by decide))
    (W6_of_ne m ρ c main_arg7 (by decide))

/-- Launch 2 writes none of the kept buffers: it reads the second layer's weight matrix through an input window, whose array a launch leaves as it found it. -/
theorem keeps7 (c : Dev nD) (h : Keeps m c (W6 m ρ c)) : Keeps m c (W7 m ρ c) :=
  h.of_eq m (W7_of_ne m ρ c main_v3 (by decide))
    (W7_of_ne m ρ c main_v6 (by decide))
    (W7_of_ne m ρ c main_v29 (by decide))
    (W7_of_ne m ρ c main_arg3 (by decide))
    ((W7_arr m ρ c 1).trans (((dat2 (V6 m ρ) c).arrAt_in 1 rfl _).trans (A_eq2 (V6 m ρ) c 1)))
    (W7_of_ne m ρ c main_arg5 (by decide))
    (W7_of_ne m ρ c main_arg6 (by decide))
    (W7_of_ne m ρ c main_arg7 (by decide))

/-- The host stretch between these two boundaries writes none of the kept buffers. -/
theorem keeps8 (c : Dev nD) (h : Keeps m c (W7 m ρ c)) : Keeps m c (W8 m ρ c) :=
  h.of_eq m (by unwritten hostOps3)
    (by unwritten hostOps3)
    (by unwritten hostOps3)
    (by unwritten hostOps3)
    (by unwritten hostOps3)
    (by unwritten hostOps3)
    (by unwritten hostOps3)
    (by unwritten hostOps3)

/-- Launch 3 writes none of the kept buffers. -/
theorem keeps9 (c : Dev nD) (h : Keeps m c (W8 m ρ c)) : Keeps m c (W9 m ρ c) :=
  h.of_eq m (W9_of_ne m ρ c main_v3 (by decide))
    (W9_of_ne m ρ c main_v6 (by decide))
    (W9_of_ne m ρ c main_v29 (by decide))
    (W9_of_ne m ρ c main_arg3 (by decide))
    (W9_of_ne m ρ c main_arg4 (by decide))
    (W9_of_ne m ρ c main_arg5 (by decide))
    (W9_of_ne m ρ c main_arg6 (by decide))
    (W9_of_ne m ρ c main_arg7 (by decide))

/-- Launch 4 writes none of the kept buffers: it reads the third layer's weight matrix through an input window, whose array a launch leaves as it found it. -/
theorem keeps10 (c : Dev nD) (h : Keeps m c (W9 m ρ c)) : Keeps m c (W10 m ρ c) :=
  h.of_eq m (W10_of_ne m ρ c main_v3 (by decide))
    (W10_of_ne m ρ c main_v6 (by decide))
    (W10_of_ne m ρ c main_v29 (by decide))
    (W10_of_ne m ρ c main_arg3 (by decide))
    (W10_of_ne m ρ c main_arg4 (by decide))
    (W10_of_ne m ρ c main_arg5 (by decide))
    ((W10_arr m ρ c 1).trans (((dat4 (V9 m ρ) c).arrAt_in 1 rfl _).trans (A_eq4 (V9 m ρ) c 1)))
    (W10_of_ne m ρ c main_arg7 (by decide))

/-! The kept buffers at each boundary, from the first launch's entry on. -/
theorem kept4 (c : Dev nD) : Keeps m c (W4 m ρ c) := keeps4 m ρ c (keeps3 m ρ c)
theorem kept5 (c : Dev nD) : Keeps m c (W5 m ρ c) := keeps5 m ρ c (kept4 m ρ c)
theorem kept6 (c : Dev nD) : Keeps m c (W6 m ρ c) := keeps6 m ρ c (kept5 m ρ c)
theorem kept7 (c : Dev nD) : Keeps m c (W7 m ρ c) := keeps7 m ρ c (kept6 m ρ c)
theorem kept8 (c : Dev nD) : Keeps m c (W8 m ρ c) := keeps8 m ρ c (kept7 m ρ c)
theorem kept9 (c : Dev nD) : Keeps m c (W9 m ρ c) := keeps9 m ρ c (kept8 m ρ c)
theorem kept10 (c : Dev nD) : Keeps m c (W10 m ρ c) := keeps10 m ρ c (kept9 m ρ c)

end Cert.KernelIdeal.Chain

end
-- ==== Proof.Spec.lean ====
/-
  The two whole-array functions the six kernel launches compute, stated index by index over the literal shapes.

  `biasClamp a b`: the one-row array `b` added to every row of `a`, then the maximum with zero (any float instance).
  `rowsTimes128 X W`, `rowsTimes256 X W`: at the ideal instance, where floats are extended reals, entry (r, c) of the
  product is the sum over the contracted index k of X[r, k] · W[k, c]; no order of summation is left in it, since
  addition of extended reals is commutative and associative.
-/
import proofs.«170027_j4913442587201_1_alg».proof.KernelIdeal
import Idealize.ShloMosaic.Lib.ValueIdx
import Idealize.ShloMosaic.PureOps.Ideal.Laws

noncomputable section

namespace Cert.KernelIdeal.Launches

open Cert.KernelIdeal
open Idealize.ShloMosaic Idealize.ShloMosaic.ValueIdx

variable {F : FTy → Type} [FloatOps F]

/-- The zero offsets of a whole-block access. -/
theorem hz : (![0, 0] : Fin 2 → Nat) = fun _ => 0 := funext fun a => by fin_cases a <;> rfl

/-- The bias row added to every row, clamped below at zero. -/
def biasClamp (a : S100000x256.Idx → Elt F .f32) (b : S1x256.Idx → Elt F .f32) : S100000x256.Idx → Elt F .f32 :=
  fun i => FloatOps.maximumf (FloatOps.addf (a i) (b (ix2 (0 : Fin 1) (⟨(i 1).val, (i 1).isLt⟩ : Fin 256)))) (FloatOps.ofBits .f32 0x00000000#32)

/-- Rows of a 100000 × 128 array times a 128 × 256 matrix: entry (r, c) is the sum over k of X[r, k] · W[k, c]. -/
def rowsTimes128 (X : S100000x128.Idx → EReal) (W : S128x256.Idx → EReal) : S100000x256.Idx → EReal :=
  fun i => ∑ k : Fin 128, X (ix2 (⟨(i 0).val, (i 0).isLt⟩ : Fin 100000) k) * W (ix2 k (⟨(i 1).val, (i 1).isLt⟩ : Fin 256))

/-- Rows of a 100000 × 256 array times a 256 × 256 matrix: entry (r, c) is the sum over k of X[r, k] · W[k, c]. -/
def rowsTimes256 (X : S100000x256.Idx → EReal) (W : S256x256.Idx → EReal) : S100000x256.Idx → EReal :=
  fun i => ∑ k : Fin 256, X (ix2 (⟨(i 0).val, (i 0).isLt⟩ : Fin 100000) k) * W (ix2 k (⟨(i 1).val, (i 1).isLt⟩ : Fin 256))

end Cert.KernelIdeal.Launches

end
-- ==== Proof.RefStages.lean ====
/-
  The reference's product and bias stages, read as the two whole-array functions of the launches.

  The reference multiplies by the host's general contraction and then adds the bias through two broadcasts and clamps
  through a splat of zero; read at an index these are the sum over the contracted index of the products, and the
  element plus the bias at its column, clamped below at zero. The kernel passes the bias as a one-row array made by
  a reshape; the reference broadcasts it to one row: both hold the bias entry of the column.
-/
import proofs.«170027_j4913442587201_1_alg».proof.Proof.RefRead
import proofs.«170027_j4913442587201_1_alg».proof.Proof.Spec
import proofs.«170027_j4913442587201_1_alg».proof.Proof.Gen.KernelIdeal
import Idealize.ShloMosaic.Lib.Pipeline.Value
import Idealize.ShloMosaic.Lib.ValueIdx

noncomputable section

namespace Cert.KernelIdeal.Chain

open Cert.KernelIdeal Cert.KernelIdeal.Gen Cert.KernelIdeal.Launches
open Idealize.ShloMosaic Idealize.ShloMosaic.ValueIdx

variable {F : FTy → Type} [FloatOps F]

/-- Layer 1 of the reference ends by adding the bias, broadcast to one row and then to every row, and taking the maximum
    with a zero splat: index by index that is the bias row added to every row and clamped, with the bias read as a
    one-row array. -/
theorem ref_bias1 (x0 : (⟨Cert.ReferenceIdeal.S100000x128, .f32⟩ : BufTy).Contents (Elt F)) (x1 : (⟨Cert.ReferenceIdeal.S2x640000, .i32⟩ : BufTy).Contents (Elt F)) (x2 : (⟨Cert.ReferenceIdeal.S128x256, .f32⟩ : BufTy).Contents (Elt F)) (x3 : (⟨Cert.ReferenceIdeal.S256, .f32⟩ : BufTy).Contents (Elt F)) :
    Cert.ReferenceIdeal.ReadP.val_main_v47 (F := F) x0 x1 x2 x3 = biasClamp (Cert.ReferenceIdeal.ReadP.val_main_v43 (F := F) x0 x1 x2) (shapeCast S1x256 x3 shapeCasts_S256_S1x256) := by
  funext i
  rw [Cert.ReferenceIdeal.ReadP.val_main_v47_apply, Cert.ReferenceIdeal.ReadP.val_main_v46_apply, Cert.ReferenceIdeal.ReadP.val_main_v45_apply, Cert.ReferenceIdeal.ReadP.val_main_v44_apply,
    Cert.ReferenceIdeal.ReadP.val_main_call1_v0_apply, Cert.ReferenceIdeal.ReadP.val_main_call1_cst_apply]
  unfold biasClamp
  rw [shapeCast_apply x3 shapeCasts_S256_S1x256 (ix2 (0 : Fin 1) (⟨(i 1).val, (i 1).isLt⟩ : Fin 256)) (Cert.ReferenceIdeal.ReadP.idx_main_v44 (Cert.ReferenceIdeal.ReadP.idx_main_v45 i))
    (by rw [Shape.rowMajor_val_one, Shape.rowMajor_val_two]; show (i 1).val = 0 * 256 + (i 1).val; omega)]

/-- Layer 2 of the reference ends by adding the bias, broadcast to one row and then to every row, and taking the maximum
    with a zero splat: index by index that is the bias row added to every row and clamped, with the bias read as a
    one-row array. -/
theorem ref_bias2 (x0 : (⟨Cert.ReferenceIdeal.S100000x128, .f32⟩ : BufTy).Contents (Elt F)) (x1 : (⟨Cert.ReferenceIdeal.S2x640000, .i32⟩ : BufTy).Contents (Elt F)) (x2 : (⟨Cert.ReferenceIdeal.S128x256, .f32⟩ : BufTy).Contents (Elt F)) (x3 : (⟨Cert.ReferenceIdeal.S256, .f32⟩ : BufTy).Contents (Elt F)) (x4 : (⟨Cert.ReferenceIdeal.S256x256, .f32⟩ : BufTy).Contents (Elt F)) (x5 : (⟨Cert.ReferenceIdeal.S256, .f32⟩ : BufTy).Contents (Elt F)) :
    Cert.ReferenceIdeal.ReadP.val_main_v65 (F := F) x0 x1 x2 x3 x4 x5 = biasClamp (Cert.ReferenceIdeal.ReadP.val_main_v61 (F := F) x0 x1 x2 x3 x4) (shapeCast S1x256 x5 shapeCasts_S256_S1x256) := by
  funext i
  rw [Cert.ReferenceIdeal.ReadP.val_main_v65_apply, Cert.ReferenceIdeal.ReadP.val_main_v64_apply, Cert.ReferenceIdeal.ReadP.val_main_v63_apply, Cert.ReferenceIdeal.ReadP.val_main_v62_apply,
    Cert.ReferenceIdeal.ReadP.val_main_call2_v0_apply, Cert.ReferenceIdeal.ReadP.val_main_call2_cst_apply]
  unfold biasClamp
  rw [shapeCast_apply x5 shapeCasts_S256_S1x256 (ix2 (0 : Fin 1) (⟨(i 1).val, (i 1).isLt⟩ : Fin 256)) (Cert.ReferenceIdeal.ReadP.idx_main_v62 (Cert.ReferenceIdeal.ReadP.idx_main_v63 i))
    (by rw [Shape.rowMajor_val_one, Shape.rowMajor_val_two]; show (i 1).val = 0 * 256 + (i 1).val; omega)]

/-- Layer 3 of the reference ends by adding the bias, broadcast to one row and then to every row, and taking the maximum
    with a zero splat: index by index that is the bias row added to every row and clamped, with the bias read as a
    one-row array. -/
theorem ref_bias3 (x0 : (⟨Cert.ReferenceIdeal.S100000x128, .f32⟩ : BufTy).Contents (Elt F)) (x1 : (⟨Cert.ReferenceIdeal.S2x640000, .i32⟩ : BufTy).Contents (Elt F)) (x2 : (⟨Cert.ReferenceIdeal.S128x256, .f32⟩ : BufTy).Contents (Elt F)) (x3 : (⟨Cert.ReferenceIdeal.S256, .f32⟩ : BufTy).Contents (Elt F)) (x4 : (⟨Cert.ReferenceIdeal.S256x256, .f32⟩ : BufTy).Contents (Elt F)) (x5 : (⟨Cert.ReferenceIdeal.S256, .f32⟩ : BufTy).Contents (Elt F)) (x6 : (⟨Cert.ReferenceIdeal.S256x256, .f32⟩ : BufTy).Contents (Elt F)) (x7 : (⟨Cert.ReferenceIdeal.S256, .f32⟩ : BufTy).Contents (Elt F)) :
    Cert.ReferenceIdeal.ReadP.val_main_v83 (F := F) x0 x1 x2 x3 x4 x5 x6 x7 = biasClamp (Cert.ReferenceIdeal.ReadP.val_main_v79 (F := F) x0 x1 x2 x3 x4 x5 x6) (shapeCast S1x256 x7 shapeCasts_S256_S1x256) := by
  funext i
  rw [Cert.ReferenceIdeal.ReadP.val_main_v83_apply, Cert.ReferenceIdeal.ReadP.val_main_v82_apply, Cert.ReferenceIdeal.ReadP.val_main_v81_apply, Cert.ReferenceIdeal.ReadP.val_main_v80_apply,
    Cert.ReferenceIdeal.ReadP.val_main_call3_v0_apply, Cert.ReferenceIdeal.ReadP.val_main_call3_cst_apply]
  unfold biasClamp
  rw [shapeCast_apply x7 shapeCasts_S256_S1x256 (ix2 (0 : Fin 1) (⟨(i 1).val, (i 1).isLt⟩ : Fin 256)) (Cert.ReferenceIdeal.ReadP.idx_main_v80 (Cert.ReferenceIdeal.ReadP.idx_main_v81 i))
    (by rw [Shape.rowMajor_val_one, Shape.rowMajor_val_two]; show (i 1).val = 0 * 256 + (i 1).val; omega)]

/-- Layer 1's product in the reference is the host's contraction of the previous stage with the weight matrix; at the
    ideal instance it is the row product. -/
theorem ref_prod1 (x0 : (⟨Cert.ReferenceIdeal.S100000x128, .f32⟩ : BufTy).Contents (Elt Ideal)) (x2 : (⟨Cert.ReferenceIdeal.S128x256, .f32⟩ : BufTy).Contents (Elt Ideal)) :
    Cert.ReferenceIdeal.ReadP.val_main_v30 (F := Ideal) x0 x2 = rowsTimes128 x0 x2 := by
  funext i
  rw [Cert.ReferenceIdeal.ReadP.val_main_v30_apply]
  unfold rowsTimes128
  refine Finset.sum_congr rfl fun k _ => ?_
  refine congrArg₂ (fun a b : EReal => a * b) (congrArg _ (funext fun a => ?_)) (congrArg _ (funext fun a => ?_))
  · match a with
    | ⟨0, _⟩ => rfl
    | ⟨1, _⟩ => rfl
  · match a with
    | ⟨0, _⟩ => rfl
    | ⟨1, _⟩ => rfl

/-- Layer 2's product in the reference is the host's contraction of the previous stage with the weight matrix; at the
    ideal instance it is the row product. -/
theorem ref_prod2 (x0 : (⟨Cert.ReferenceIdeal.S100000x128, .f32⟩ : BufTy).Contents (Elt Ideal)) (x1 : (⟨Cert.ReferenceIdeal.S2x640000, .i32⟩ : BufTy).Contents (Elt Ideal)) (x2 : (⟨Cert.ReferenceIdeal.S128x256, .f32⟩ : BufTy).Contents (Elt Ideal)) (x3 : (⟨Cert.ReferenceIdeal.S256, .f32⟩ : BufTy).Contents (Elt Ideal)) (x4 : (⟨Cert.ReferenceIdeal.S256x256, .f32⟩ : BufTy).Contents (Elt Ideal)) :
    Cert.ReferenceIdeal.ReadP.val_main_v48 (F := Ideal) x0 x1 x2 x3 x4 = rowsTimes256 (Cert.ReferenceIdeal.ReadP.val_main_v47 (F := Ideal) x0 x1 x2 x3) x4 := by
  funext i
  rw [Cert.ReferenceIdeal.ReadP.val_main_v48_apply]
  unfold rowsTimes256
  refine Finset.sum_congr rfl fun k _ => ?_
  refine congrArg₂ (fun a b : EReal => a * b) (congrArg _ (funext fun a => ?_)) (congrArg _ (funext fun a => ?_))
  · match a with
    | ⟨0, _⟩ => rfl
    | ⟨1, _⟩ => rfl
  · match a with
    | ⟨0, _⟩ => rfl
    | ⟨1, _⟩ => rfl

/-- Layer 3's product in the reference is the host's contraction of the previous stage with the weight matrix; at the
    ideal instance it is the row product. -/
theorem ref_prod3 (x0 : (⟨Cert.ReferenceIdeal.S100000x128, .f32⟩ : BufTy).Contents (Elt Ideal)) (x1 : (⟨Cert.ReferenceIdeal.S2x640000, .i32⟩ : BufTy).Contents (Elt Ideal)) (x2 : (⟨Cert.ReferenceIdeal.S128x256, .f32⟩ : BufTy).Contents (Elt Ideal)) (x3 : (⟨Cert.ReferenceIdeal.S256, .f32⟩ : BufTy).Contents (Elt Ideal)) (x4 : (⟨Cert.ReferenceIdeal.S256x256, .f32⟩ : BufTy).Contents (Elt Ideal)) (x5 : (⟨Cert.ReferenceIdeal.S256, .f32⟩ : BufTy).Contents (Elt Ideal)) (x6 : (⟨Cert.ReferenceIdeal.S256x256, .f32⟩ : BufTy).Contents (Elt Ideal)) :
    Cert.ReferenceIdeal.ReadP.val_main_v66 (F := Ideal) x0 x1 x2 x3 x4 x5 x6 = rowsTimes256 (Cert.ReferenceIdeal.ReadP.val_main_v65 (F := Ideal) x0 x1 x2 x3 x4 x5) x6 := by
  funext i
  rw [Cert.ReferenceIdeal.ReadP.val_main_v66_apply]
  unfold rowsTimes256
  refine Finset.sum_congr rfl fun k _ => ?_
  refine congrArg₂ (fun a b : EReal => a * b) (congrArg _ (funext fun a => ?_)) (congrArg _ (funext fun a => ?_))
  · match a with
    | ⟨0, _⟩ => rfl
    | ⟨1, _⟩ => rfl
  · match a with
    | ⟨0, _⟩ => rfl
    | ⟨1, _⟩ => rfl

end Cert.KernelIdeal.Chain

end
-- ==== Proof.Mat0.lean ====
/-
  Launch 0, a matrix-product launch, read as one function of its operand arrays at the ideal instance.

  The launch walks the 100000 rows in 50 blocks of 2000. At a block the body loads the block of the row array and the
  whole 128 × 256 matrix, changes both to a narrower float format — the identity on extended reals —, and multiplies them
  into a zero accumulator; the block is written back over the same rows of the result array. Entry (p, q) of a block
  is the sum over k of the row block at (p, k) times the matrix at (k, q): a sum over the contracted index alone, so
  the blocks are the restrictions of one whole-array product of rows, and since the 50 blocks cover every row the
  result array is that product.
-/
import proofs.«170027_j4913442587201_1_alg».proof.Proof.Gen.KernelIdeal.Frame
import proofs.«170027_j4913442587201_1_alg».proof.Proof.Spec
import Idealize.ShloMosaic.Lib.Pipeline.Value
import Idealize.ShloMosaic.Lib.ValueIdx
import Idealize.ShloMosaic.PureOps.Ideal.Laws

noncomputable section

namespace Cert.KernelIdeal.Launches

open Cert.KernelIdeal Cert.KernelIdeal.Gen
open Idealize.ShloMosaic Idealize.ShloMosaic.TcCoe Idealize.SL.Sem Idealize.ShloMosaic.ValueIdx
open Idealize.ShloMosaic.Pipeline (Dat)

/-! The operand coordinates of the block product: at output index (r, c) and contracted index k the left operand is
    read at (r, k) and the right at (k, c). -/

theorem lhs0_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs0_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs0_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs0_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- What the body stores at row `p`, column `q` of a block: the sum over `k` of the loaded row block at (p, k) times the
    loaded matrix at (k, q) — the change of float format is the identity and the accumulator is zero. -/
theorem pay0_apply (x0 : Vec Ideal S2000x128 .f32) (x1 : Vec Ideal S128x256 .f32) (p : Fin 2000) (q : Fin 256) :
    k0_pay1 x0 x1 (ix2 p q) = ∑ k : Fin 128, x0 (ix2 p k) * x1 (ix2 k q) := by
  unfold k0_pay1
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs0_0 _ _
    | ⟨1, _⟩ => exact (lhs0_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs0_0 _ _).trans hk
    | ⟨1, _⟩ => exact rhs0_1 _ _)
  rw [el, er]
  rfl

section Launch

variable (V : (c : Dev nD) → (b : Ref sig .tc) → Buf (Elt Ideal) ((c : Thread nD τ).loc b))

/-- The printed index maps over the grid: at point `t` the row array's block and the result's block are block `t` of
    the rows, and the matrix's one block is the whole of it. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p`, column `k` of the row array's block at point `t` is the array at row `2000 t + p`, column `k`. -/
theorem rows0_apply (c : Dev nD) (t : Fin cfg0.N) (p : Fin 2000) (k : Fin 128) (j : S100000x128.Idx)
    (hj0 : (j 0).val = t.val * 2000 + p.val) (hj1 : (j 1).val = k.val) :
    iblk0 V c 0 t (ix2 p k) = V c main_arg0 j := by
  obtain ⟨e0, e1, -, -, -, -⟩ := idx_facts0 t
  unfold iblk0
  rw [View.read_apply]
  show V c main_arg0 _ = V c main_arg0 j
  refine congrArg (V c main_arg0) (funext fun a => Fin.ext ?_)
  match a with
  | ⟨0, _⟩ => show win0_0.index t 0 * 2000 + 1 * p.val = (j 0).val; rw [e0, hj0]; omega
  | ⟨1, _⟩ => show win0_0.index t 1 * 128 + 1 * k.val = (j 1).val; rw [e1, hj1]; omega

/-- Row `k`, column `q` of the matrix's block at any point is the matrix at (k, q). -/
theorem mat0_apply (c : Dev nD) (t : Fin cfg0.N) (k : Fin 128) (q : Fin 256) (j : S128x256.Idx)
    (hj0 : (j 0).val = k.val) (hj1 : (j 1).val = q.val) :
    iblk0 V c 1 t (ix2 k q) = V c main_arg2 j := by
  obtain ⟨-, -, e2, e3, -, -⟩ := idx_facts0 t
  unfold iblk0
  rw [View.read_apply]
  show V c main_arg2 _ = V c main_arg2 j
  refine congrArg (V c main_arg2) (funext fun a => Fin.ext ?_)
  match a with
  | ⟨0, _⟩ => show win0_1.index t 0 * 128 + 1 * k.val = (j 0).val; rw [e2, hj0]; omega
  | ⟨1, _⟩ => show win0_1.index t 1 * 256 + 1 * q.val = (j 1).val; rw [e3, hj1]; omega

/-- What point `t` writes back is block `t` of the rows of the first operand times the second, as the launch finds them. -/
theorem flushed0_eq (c : Dev nD) (t : Fin cfg0.N) :
    (dat0 V c).flushed 2 t = ((cfg0.win 2).blk t).view.read (Elt Ideal) (rowsTimes128 (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x256) hz]
  obtain ⟨-, -, -, -, e4, e5⟩ := idx_facts0 t
  funext j
  obtain ⟨p, q, rfl⟩ : ∃ (p : Fin 2000) (q : Fin 256), j = ix2 p q := ⟨j 0, j 1, eq_ix2 j⟩
  refine (pay0_apply (iblk0 V c 0 t) (iblk0 V c 1 t) p q).trans ?_
  rw [View.read_apply]
  have hE0 : ((((cfg0.win 2).blk t).view.emb (ix2 p q)) 0).val = t.val * 2000 + p.val := by
    show win0_2.index t 0 * 2000 + 1 * p.val = _; rw [e4]; omega
  have hE1 : ((((cfg0.win 2).blk t).view.emb (ix2 p q)) 1).val = q.val := by
    show win0_2.index t 1 * 256 + 1 * q.val = _; rw [e5]; omega
  unfold rowsTimes128
  refine Finset.sum_congr rfl fun k _ => ?_
  exact congrArg₂ (fun a b : EReal => a * b) (rows0_apply V c t p k _ hE0 rfl) (mat0_apply V c t k q _ rfl hE1)

/-- An index of the result array is in point `t`'s block iff each coordinate is in the block's range on its axis. -/
theorem mem_blk0 (t : Fin cfg0.N) (i : S100000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Every row of the result lies in the block of the point numbered by the row divided by 2000. -/
theorem cover0 (i : S100000x256.Idx) : ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 50 := N_0
  have ht : (i 0).val / 2000 < cfg0.N := by rw [hN]; omega
  obtain ⟨-, -, -, -, e4, e5⟩ := idx_facts0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ 0 * 2000 ≤ (i 0).val ∧ (i 0).val < win0_2.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ 1 * 256 ≤ (i 1).val ∧ (i 1).val < win0_2.index ⟨(i 0).val / 2000, ht⟩ 1 * 256 + 256
    rw [e5]; omega

/-- The result array after the launch is the rows of the first operand times the second, as the launch finds them. -/
theorem final0 (c : Dev nD) : (dat0 V c).arrAt 2 cfg0.N = rowsTimes128 (V c main_arg0) (V c main_arg2) :=
  (dat0 V c).arrAt_eq_of_cover 2 (rowsTimes128 (V c main_arg0) (V c main_arg2)) (fun t _ => flushed0_eq V c t) cover0

end Launch

end Cert.KernelIdeal.Launches

end
-- ==== Proof.Bias1.lean ====
/-
  Launch 1, a bias-and-clamp launch, read as one function of its operand arrays.

  The launch walks the 100000 rows in 50 blocks of 2000. At a block the body loads the block of the row array and the
  whole one-row bias array, adds the bias row to every row of the block and takes the maximum with zero; the block is
  written back over the same rows of the result array. Each element of the result depends only on the element of the
  row array at the same index and on the bias at the same column, so the blocks are the restrictions of one
  whole-array function, and since the 50 blocks cover every row the result array is that function.
-/
import proofs.«170027_j4913442587201_1_alg».proof.Proof.Gen.KernelIdeal.Frame
import proofs.«170027_j4913442587201_1_alg».proof.Proof.Spec
import Idealize.ShloMosaic.Lib.Pipeline.Value
import Idealize.ShloMosaic.Lib.ValueIdx
import Idealize.ShloMosaic.Lib.ValueLayout

noncomputable section

namespace Cert.KernelIdeal.Launches

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

/-- What the body stores at row `p`, column `q` of a block: the loaded element plus the bias at column `q`, clamped. -/
theorem pay1_apply (x0 : Vec F S2000x256 .f32) (x1 : Vec F S1x256 .f32) (p : Fin 2000) (q : Fin 256) :
    k1_pay1 x0 x1 (ix2 p q) = FloatOps.maximumf (FloatOps.addf (x0 (ix2 p q)) (x1 (ix2 (0 : Fin 1) q))) (FloatOps.ofBits .f32 0x00000000#32) := by
  unfold k1_pay1
  rw [shapeCast_self, shapeCast_self]
  show FloatOps.maximumf (FloatOps.addf (x0 (ix2 p q)) (broadcastTo S2000x256 x1 broadcasts_S1x256_S2000x256 (ix2 p q))) _ = _
  rw [broadcastTo_apply x1 broadcasts_S1x256_S2000x256 (ix2 p q) (ix2 (0 : Fin 1) q) (fun a => match a with
    | ⟨0, _⟩ => by show 0 = if (1 : Nat) = 1 then 0 else _; rw [if_pos rfl]
    | ⟨1, _⟩ => by show q.val = if (256 : Nat) = 1 then 0 else q.val; rw [if_neg (by decide)])]
  rfl

section Launch

variable (V : (c : Dev nD) → (b : Ref sig .tc) → Buf (Elt F) ((c : Thread nD τ).loc b))

/-- The printed index maps over the grid: at point `t` the row array's block and the result's block are block `t` of
    the rows, and the bias array's one block is the whole of it. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p`, column `q` of the row array's block at point `t` is the array at row `2000 t + p`, column `q`. -/
theorem rows1_apply (c : Dev nD) (t : Fin cfg1.N) (p : Fin 2000) (q : Fin 256) (k : S100000x256.Idx)
    (hk0 : (k 0).val = t.val * 2000 + p.val) (hk1 : (k 1).val = q.val) :
    iblk1 V c 0 t (ix2 p q) = V c main_v43 k := by
  obtain ⟨e0, e1, -, -, -, -⟩ := idx_facts1 t
  unfold iblk1
  rw [View.read_apply]
  show V c main_v43 _ = V c main_v43 k
  refine congrArg (V c main_v43) (funext fun a => Fin.ext ?_)
  match a with
  | ⟨0, _⟩ => show win1_0.index t 0 * 2000 + 1 * p.val = (k 0).val; rw [e0, hk0]; omega
  | ⟨1, _⟩ => show win1_0.index t 1 * 256 + 1 * q.val = (k 1).val; rw [e1, hk1]; omega

/-- Column `q` of the bias array's block at any point is the bias array at column `q`. -/
theorem bias1_apply (c : Dev nD) (t : Fin cfg1.N) (q : Fin 256) (k : S1x256.Idx)
    (hk0 : (k 0).val = 0) (hk1 : (k 1).val = q.val) :
    iblk1 V c 1 t (ix2 (0 : Fin 1) q) = V c main_v44 k := by
  obtain ⟨-, -, e2, e3, -, -⟩ := idx_facts1 t
  unfold iblk1
  rw [View.read_apply]
  show V c main_v44 _ = V c main_v44 k
  refine congrArg (V c main_v44) (funext fun a => Fin.ext ?_)
  match a with
  | ⟨0, _⟩ => show win1_1.index t 0 * 1 + 1 * 0 = (k 0).val; rw [e2, hk0]
  | ⟨1, _⟩ => show win1_1.index t 1 * 256 + 1 * q.val = (k 1).val; rw [e3, hk1]; omega

/-- What point `t` writes back is block `t` of the bias-and-clamp of the two operand arrays as the launch finds them. -/
theorem flushed1_eq (c : Dev nD) (t : Fin cfg1.N) :
    (dat1 V c).flushed 2 t = ((cfg1.win 2).blk t).view.read (Elt F) (biasClamp (V c main_v43) (V c main_v44)) := by
  show (cfg1.win 2).cut (grid1.coords t) ((dat1 V c).after 2 t) = _
  rw [after1_2]
  unfold out1_2
  rw [View.canon_unit_zero hz]
  simp only [View.ld_unit_zero (S := S2000x256) hz, View.ld_unit_zero (S := S1x256) hz]
  obtain ⟨-, -, -, -, e4, e5⟩ := idx_facts1 t
  funext j
  obtain ⟨p, q, rfl⟩ : ∃ (p : Fin 2000) (q : Fin 256), j = ix2 p q := ⟨j 0, j 1, eq_ix2 j⟩
  refine (pay1_apply (iblk1 V c 0 t) (iblk1 V c 1 t) p q).trans ?_
  rw [View.read_apply]
  have hE0 : ((((cfg1.win 2).blk t).view.emb (ix2 p q)) 0).val = t.val * 2000 + p.val := by
    show win1_2.index t 0 * 2000 + 1 * p.val = _; rw [e4]; omega
  have hE1 : ((((cfg1.win 2).blk t).view.emb (ix2 p q)) 1).val = q.val := by
    show win1_2.index t 1 * 256 + 1 * q.val = _; rw [e5]; omega
  unfold biasClamp
  exact congrArg₂ (fun a b => FloatOps.maximumf (FloatOps.addf a b) (FloatOps.ofBits .f32 0x00000000#32))
    (rows1_apply V c t p q _ hE0 hE1) (bias1_apply V c t q _ rfl hE1)

/-- An index of the result array is in point `t`'s block iff each coordinate is in the block's range on its axis. -/
theorem mem_blk1 (t : Fin cfg1.N) (i : S100000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v45).slice (win1_2.rect t)).set ↔ _
  rw [View.set_slice_whole, Rect.mem_set_unit]
  exact Iff.rfl

/-- Every row of the result lies in the block of the point numbered by the row divided by 2000. -/
theorem cover1 (i : S100000x256.Idx) : ∃ t : Fin cfg1.N, (cfg1.win 2).flush t = true ∧ i ∈ ((cfg1.win 2).blk t).view.set := by
  have hi0 : (i 0).val < 100000 := (i 0).isLt
  have hi1 : (i 1).val < 256 := (i 1).isLt
  have hN : cfg1.N = 50 := N_1
  have ht : (i 0).val / 2000 < cfg1.N := by rw [hN]; omega
  obtain ⟨-, -, -, -, e4, e5⟩ := idx_facts1 ⟨(i 0).val / 2000, ht⟩
  refine ⟨⟨(i 0).val / 2000, ht⟩, flush1_2 _, ?_⟩
  rw [mem_blk1]
  intro a
  match a with
  | ⟨0, _⟩ =>
    show win1_2.index ⟨(i 0).val / 2000, ht⟩ 0 * 2000 ≤ (i 0).val ∧ (i 0).val < win1_2.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ 1 * 256 ≤ (i 1).val ∧ (i 1).val < win1_2.index ⟨(i 0).val / 2000, ht⟩ 1 * 256 + 256
    rw [e5]; omega

/-- The result array after the launch is the bias-and-clamp of the two operand arrays as the launch finds them. -/
theorem final1 (c : Dev nD) : (dat1 V c).arrAt 2 cfg1.N = biasClamp (V c main_v43) (V c main_v44) :=
  (dat1 V c).arrAt_eq_of_cover 2 (biasClamp (V c main_v43) (V c main_v44)) (fun t _ => flushed1_eq V c t) cover1

end Launch

end Cert.KernelIdeal.Launches

end
-- ==== Proof.Layer1.lean ====
/-
  Layer 1 of the idealized kernel, boundary by boundary, against the reference's stages.

  The product launch leaves the rows of its input times the weight matrix; the host stretch after it gathers the rows at
  the source indices, scales each by its edge weight and scatter-adds them at the destination indices, and reshapes
  the bias to one row; the bias launch adds that row to every row and clamps at zero. The host operations are the
  reference's own, applied to arrays already known to be the reference's stages, so each result is the next stage.
-/
import proofs.«170027_j4913442587201_1_alg».proof.Proof.Carry
import proofs.«170027_j4913442587201_1_alg».proof.Proof.RefStages
import proofs.«170027_j4913442587201_1_alg».proof.Proof.Mat0
import proofs.«170027_j4913442587201_1_alg».proof.Proof.Bias1

set_option maxRecDepth 16384

noncomputable section

namespace Cert.KernelIdeal.Chain

open Cert.KernelIdeal Cert.KernelIdeal.Gen Cert.KernelIdeal.Launches
open Idealize.ShloMosaic Idealize.ShloMosaic.TcCoe Idealize.SL.Sem Idealize.ShloMosaic.StableHlo

variable (m : (ℓ : Loc nD τ sig) → Buf (Elt Ideal) ℓ) (ρ : Dev nD → PrngReg)

/-- After the product launch of layer 1 its result array is the reference's product stage. -/
theorem prod1 (c : Dev nD) : W4 m ρ c (Proc.devRef .tc main_v30) = Cert.ReferenceIdeal.ReadP.val_main_v30 (F := Ideal) (m ((c.tc : Thread nD τ).loc main_arg0)) (m ((c.tc : Thread nD τ).loc main_arg2)) := by
  refine (W4_arr m ρ c 2).trans ?_
  rw [final0 (V3 m ρ) c]
  show rowsTimes128 (W3 m ρ c (Proc.devRef .tc main_arg0)) (W3 m ρ c (Proc.devRef .tc main_arg2)) = _
  rw [entry_arg0, entry_arg2]
  exact (ref_prod1 _ _).symm

/-- After the host stretch of layer 1 the aggregated array is the reference's scatter-add stage. -/
theorem agg1 (c : Dev nD) : W5 m ρ c (Proc.devRef .tc main_v43) = Cert.ReferenceIdeal.ReadP.val_main_v43 (F := Ideal) (m ((c.tc : Thread nD τ).loc main_arg0)) (m ((c.tc : Thread nD τ).loc main_arg1)) (m ((c.tc : Thread nD τ).loc main_arg2)) := by
  have h := kept4 m ρ c
  show StableHlo.after hostOps1 (W4 m ρ c) (Proc.devRef .tc main_v43) = _
  simp only [hostOps1]
  after_results_simp
  rw [prod1 m ρ c, h.src, h.dst, h.wgt]
  rfl

/-- After the host stretch of layer 1 the one-row bias array is the bias argument reshaped. -/
theorem biasRow1 (c : Dev nD) : W5 m ρ c (Proc.devRef .tc main_v44) = shapeCast S1x256 (m ((c.tc : Thread nD τ).loc main_arg3)) shapeCasts_S256_S1x256 := by
  have h := kept4 m ρ c
  show StableHlo.after hostOps1 (W4 m ρ c) (Proc.devRef .tc main_v44) = _
  simp only [hostOps1]
  after_results_simp
  rw [h.a3]
  rfl

/-- After the bias launch of layer 1 its result array is the reference's clamp stage. -/
theorem clamp1 (c : Dev nD) : W6 m ρ c (Proc.devRef .tc main_v45) = Cert.ReferenceIdeal.ReadP.val_main_v47 (F := Ideal) (m ((c.tc : Thread nD τ).loc main_arg0)) (m ((c.tc : Thread nD τ).loc main_arg1)) (m ((c.tc : Thread nD τ).loc main_arg2)) (m ((c.tc : Thread nD τ).loc main_arg3)) := by
  refine (W6_arr m ρ c 2).trans ?_
  rw [final1 (V5 m ρ) c]
  show biasClamp (W5 m ρ c (Proc.devRef .tc main_v43)) (W5 m ρ c (Proc.devRef .tc main_v44)) = _
  rw [agg1, biasRow1]
  exact (ref_bias1 _ _ _ _).symm

end Cert.KernelIdeal.Chain

end
-- ==== Proof.Mat2.lean ====
/-
  Launch 2, a matrix-product launch, read as one function of its operand arrays at the ideal instance.

  The launch walks the 100000 rows in 50 blocks of 2000. At a block the body loads the block of the row array and the
  whole 256 × 256 matrix, changes both to a narrower float format — the identity on extended reals —, and multiplies them
  into a zero accumulator; the block is written back over the same rows of the result array. Entry (p, q) of a block
  is the sum over k of the row block at (p, k) times the matrix at (k, q): a sum over the contracted index alone, so
  the blocks are the restrictions of one whole-array product of rows, and since the 50 blocks cover every row the
  result array is that product.
-/
import proofs.«170027_j4913442587201_1_alg».proof.Proof.Gen.KernelIdeal.Frame
import proofs.«170027_j4913442587201_1_alg».proof.Proof.Spec
import Idealize.ShloMosaic.Lib.Pipeline.Value
import Idealize.ShloMosaic.Lib.ValueIdx
import Idealize.ShloMosaic.PureOps.Ideal.Laws

noncomputable section

namespace Cert.KernelIdeal.Launches

open Cert.KernelIdeal Cert.KernelIdeal.Gen
open Idealize.ShloMosaic Idealize.ShloMosaic.TcCoe Idealize.SL.Sem Idealize.ShloMosaic.ValueIdx
open Idealize.ShloMosaic.Pipeline (Dat)

/-! The operand coordinates of the block product: at output index (r, c) and contracted index k the left operand is
    read at (r, k) and the right at (k, c). -/

theorem lhs2_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs2_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs2_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs2_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- What the body stores at row `p`, column `q` of a block: the sum over `k` of the loaded row block at (p, k) times the
    loaded matrix at (k, q) — the change of float format is the identity and the accumulator is zero. -/
theorem pay2_apply (x0 : Vec Ideal S2000x256 .f32) (x1 : Vec Ideal S256x256 .f32) (p : Fin 2000) (q : Fin 256) :
    k2_pay1 x0 x1 (ix2 p q) = ∑ k : Fin 256, x0 (ix2 p k) * x1 (ix2 k q) := by
  unfold k2_pay1
  rw [shapeCast_self]
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs2_0 _ _
    | ⟨1, _⟩ => exact (lhs2_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs2_0 _ _).trans hk
    | ⟨1, _⟩ => exact rhs2_1 _ _)
  rw [el, er]
  rfl

section Launch

variable (V : (c : Dev nD) → (b : Ref sig .tc) → Buf (Elt Ideal) ((c : Thread nD τ).loc b))

/-- The printed index maps over the grid: at point `t` the row array's block and the result's block are block `t` of
    the rows, and the matrix's one block is the whole of it. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p`, column `k` of the row array's block at point `t` is the array at row `2000 t + p`, column `k`. -/
theorem rows2_apply (c : Dev nD) (t : Fin cfg2.N) (p : Fin 2000) (k : Fin 256) (j : S100000x256.Idx)
    (hj0 : (j 0).val = t.val * 2000 + p.val) (hj1 : (j 1).val = k.val) :
    iblk2 V c 0 t (ix2 p k) = V c main_v45 j := by
  obtain ⟨e0, e1, -, -, -, -⟩ := idx_facts2 t
  unfold iblk2
  rw [View.read_apply]
  show V c main_v45 _ = V c main_v45 j
  refine congrArg (V c main_v45) (funext fun a => Fin.ext ?_)
  match a with
  | ⟨0, _⟩ => show win2_0.index t 0 * 2000 + 1 * p.val = (j 0).val; rw [e0, hj0]; omega
  | ⟨1, _⟩ => show win2_0.index t 1 * 256 + 1 * k.val = (j 1).val; rw [e1, hj1]; omega

/-- Row `k`, column `q` of the matrix's block at any point is the matrix at (k, q). -/
theorem mat2_apply (c : Dev nD) (t : Fin cfg2.N) (k : Fin 256) (q : Fin 256) (j : S256x256.Idx)
    (hj0 : (j 0).val = k.val) (hj1 : (j 1).val = q.val) :
    iblk2 V c 1 t (ix2 k q) = V c main_arg4 j := by
  obtain ⟨-, -, e2, e3, -, -⟩ := idx_facts2 t
  unfold iblk2
  rw [View.read_apply]
  show V c main_arg4 _ = V c main_arg4 j
  refine congrArg (V c main_arg4) (funext fun a => Fin.ext ?_)
  match a with
  | ⟨0, _⟩ => show win2_1.index t 0 * 256 + 1 * k.val = (j 0).val; rw [e2, hj0]; omega
  | ⟨1, _⟩ => show win2_1.index t 1 * 256 + 1 * q.val = (j 1).val; rw [e3, hj1]; omega

/-- What point `t` writes back is block `t` of the rows of the first operand times the second, as the launch finds them. -/
theorem flushed2_eq (c : Dev nD) (t : Fin cfg2.N) :
    (dat2 V c).flushed 2 t = ((cfg2.win 2).blk t).view.read (Elt Ideal) (rowsTimes256 (V c main_v45) (V c main_arg4)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x256) hz]
  obtain ⟨-, -, -, -, e4, e5⟩ := idx_facts2 t
  funext j
  obtain ⟨p, q, rfl⟩ : ∃ (p : Fin 2000) (q : Fin 256), j = ix2 p q := ⟨j 0, j 1, eq_ix2 j⟩
  refine (pay2_apply (iblk2 V c 0 t) (iblk2 V c 1 t) p q).trans ?_
  rw [View.read_apply]
  have hE0 : ((((cfg2.win 2).blk t).view.emb (ix2 p q)) 0).val = t.val * 2000 + p.val := by
    show win2_2.index t 0 * 2000 + 1 * p.val = _; rw [e4]; omega
  have hE1 : ((((cfg2.win 2).blk t).view.emb (ix2 p q)) 1).val = q.val := by
    show win2_2.index t 1 * 256 + 1 * q.val = _; rw [e5]; omega
  unfold rowsTimes256
  refine Finset.sum_congr rfl fun k _ => ?_
  exact congrArg₂ (fun a b : EReal => a * b) (rows2_apply V c t p k _ hE0 rfl) (mat2_apply V c t k q _ rfl hE1)

/-- An index of the result array is in point `t`'s block iff each coordinate is in the block's range on its axis. -/
theorem mem_blk2 (t : Fin cfg2.N) (i : S100000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v46).slice (win2_2.rect t)).set ↔ _
  rw [View.set_slice_whole, Rect.mem_set_unit]
  exact Iff.rfl

/-- Every row of the result lies in the block of the point numbered by the row divided by 2000. -/
theorem cover2 (i : S100000x256.Idx) : ∃ t : Fin cfg2.N, (cfg2.win 2).flush t = true ∧ i ∈ ((cfg2.win 2).blk t).view.set := by
  have hi0 : (i 0).val < 100000 := (i 0).isLt
  have hi1 : (i 1).val < 256 := (i 1).isLt
  have hN : cfg2.N = 50 := N_2
  have ht : (i 0).val / 2000 < cfg2.N := by rw [hN]; omega
  obtain ⟨-, -, -, -, e4, e5⟩ := idx_facts2 ⟨(i 0).val / 2000, ht⟩
  refine ⟨⟨(i 0).val / 2000, ht⟩, flush2_2 _, ?_⟩
  rw [mem_blk2]
  intro a
  match a with
  | ⟨0, _⟩ =>
    show win2_2.index ⟨(i 0).val / 2000, ht⟩ 0 * 2000 ≤ (i 0).val ∧ (i 0).val < win2_2.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win2_2.index ⟨(i 0).val / 2000, ht⟩ 1 * 256 ≤ (i 1).val ∧ (i 1).val < win2_2.index ⟨(i 0).val / 2000, ht⟩ 1 * 256 + 256
    rw [e5]; omega

/-- The result array after the launch is the rows of the first operand times the second, as the launch finds them. -/
theorem final2 (c : Dev nD) : (dat2 V c).arrAt 2 cfg2.N = rowsTimes256 (V c main_v45) (V c main_arg4) :=
  (dat2 V c).arrAt_eq_of_cover 2 (rowsTimes256 (V c main_v45) (V c main_arg4)) (fun t _ => flushed2_eq V c t) cover2

end Launch

end Cert.KernelIdeal.Launches

end
-- ==== Proof.Bias3.lean ====
/-
  Launch 3, a bias-and-clamp launch, read as one function of its operand arrays.

  The launch walks the 100000 rows in 50 blocks of 2000. At a block the body loads the block of the row array and the
  whole one-row bias array, adds the bias row to every row of the block and takes the maximum with zero; the block is
  written back over the same rows of the result array. Each element of the result depends only on the element of the
  row array at the same index and on the bias at the same column, so the blocks are the restrictions of one
  whole-array function, and since the 50 blocks cover every row the result array is that function.
-/
import proofs.«170027_j4913442587201_1_alg».proof.Proof.Gen.KernelIdeal.Frame
import proofs.«170027_j4913442587201_1_alg».proof.Proof.Spec
import Idealize.ShloMosaic.Lib.Pipeline.Value
import Idealize.ShloMosaic.Lib.ValueIdx
import Idealize.ShloMosaic.Lib.ValueLayout

noncomputable section

namespace Cert.KernelIdeal.Launches

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

/-- What the body stores at row `p`, column `q` of a block: the loaded element plus the bias at column `q`, clamped. -/
theorem pay3_apply (x0 : Vec F S2000x256 .f32) (x1 : Vec F S1x256 .f32) (p : Fin 2000) (q : Fin 256) :
    k3_pay1 x0 x1 (ix2 p q) = FloatOps.maximumf (FloatOps.addf (x0 (ix2 p q)) (x1 (ix2 (0 : Fin 1) q))) (FloatOps.ofBits .f32 0x00000000#32) := by
  unfold k3_pay1
  rw [shapeCast_self, shapeCast_self]
  show FloatOps.maximumf (FloatOps.addf (x0 (ix2 p q)) (broadcastTo S2000x256 x1 broadcasts_S1x256_S2000x256 (ix2 p q))) _ = _
  rw [broadcastTo_apply x1 broadcasts_S1x256_S2000x256 (ix2 p q) (ix2 (0 : Fin 1) q) (fun a => match a with
    | ⟨0, _⟩ => by show 0 = if (1 : Nat) = 1 then 0 else _; rw [if_pos rfl]
    | ⟨1, _⟩ => by show q.val = if (256 : Nat) = 1 then 0 else q.val; rw [if_neg (by decide)])]
  rfl

section Launch

variable (V : (c : Dev nD) → (b : Ref sig .tc) → Buf (Elt F) ((c : Thread nD τ).loc b))

/-- The printed index maps over the grid: at point `t` the row array's block and the result's block are block `t` of
    the rows, and the bias array's one block is the whole of it. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `p`, column `q` of the row array's block at point `t` is the array at row `2000 t + p`, column `q`. -/
theorem rows3_apply (c : Dev nD) (t : Fin cfg3.N) (p : Fin 2000) (q : Fin 256) (k : S100000x256.Idx)
    (hk0 : (k 0).val = t.val * 2000 + p.val) (hk1 : (k 1).val = q.val) :
    iblk3 V c 0 t (ix2 p q) = V c main_v59 k := by
  obtain ⟨e0, e1, -, -, -, -⟩ := idx_facts3 t
  unfold iblk3
  rw [View.read_apply]
  show V c main_v59 _ = V c main_v59 k
  refine congrArg (V c main_v59) (funext fun a => Fin.ext ?_)
  match a with
  | ⟨0, _⟩ => show win3_0.index t 0 * 2000 + 1 * p.val = (k 0).val; rw [e0, hk0]; omega
  | ⟨1, _⟩ => show win3_0.index t 1 * 256 + 1 * q.val = (k 1).val; rw [e1, hk1]; omega

/-- Column `q` of the bias array's block at any point is the bias array at column `q`. -/
theorem bias3_apply (c : Dev nD) (t : Fin cfg3.N) (q : Fin 256) (k : S1x256.Idx)
    (hk0 : (k 0).val = 0) (hk1 : (k 1).val = q.val) :
    iblk3 V c 1 t (ix2 (0 : Fin 1) q) = V c main_v60 k := by
  obtain ⟨-, -, e2, e3, -, -⟩ := idx_facts3 t
  unfold iblk3
  rw [View.read_apply]
  show V c main_v60 _ = V c main_v60 k
  refine congrArg (V c main_v60) (funext fun a => Fin.ext ?_)
  match a with
  | ⟨0, _⟩ => show win3_1.index t 0 * 1 + 1 * 0 = (k 0).val; rw [e2, hk0]
  | ⟨1, _⟩ => show win3_1.index t 1 * 256 + 1 * q.val = (k 1).val; rw [e3, hk1]; omega

/-- What point `t` writes back is block `t` of the bias-and-clamp of the two operand arrays as the launch finds them. -/
theorem flushed3_eq (c : Dev nD) (t : Fin cfg3.N) :
    (dat3 V c).flushed 2 t = ((cfg3.win 2).blk t).view.read (Elt F) (biasClamp (V c main_v59) (V c main_v60)) := by
  show (cfg3.win 2).cut (grid3.coords t) ((dat3 V c).after 2 t) = _
  rw [after3_2]
  unfold out3_2
  rw [View.canon_unit_zero hz]
  simp only [View.ld_unit_zero (S := S2000x256) hz, View.ld_unit_zero (S := S1x256) hz]
  obtain ⟨-, -, -, -, e4, e5⟩ := idx_facts3 t
  funext j
  obtain ⟨p, q, rfl⟩ : ∃ (p : Fin 2000) (q : Fin 256), j = ix2 p q := ⟨j 0, j 1, eq_ix2 j⟩
  refine (pay3_apply (iblk3 V c 0 t) (iblk3 V c 1 t) p q).trans ?_
  rw [View.read_apply]
  have hE0 : ((((cfg3.win 2).blk t).view.emb (ix2 p q)) 0).val = t.val * 2000 + p.val := by
    show win3_2.index t 0 * 2000 + 1 * p.val = _; rw [e4]; omega
  have hE1 : ((((cfg3.win 2).blk t).view.emb (ix2 p q)) 1).val = q.val := by
    show win3_2.index t 1 * 256 + 1 * q.val = _; rw [e5]; omega
  unfold biasClamp
  exact congrArg₂ (fun a b => FloatOps.maximumf (FloatOps.addf a b) (FloatOps.ofBits .f32 0x00000000#32))
    (rows3_apply V c t p q _ hE0 hE1) (bias3_apply V c t q _ rfl hE1)

/-- An index of the result array is in point `t`'s block iff each coordinate is in the block's range on its axis. -/
theorem mem_blk3 (t : Fin cfg3.N) (i : S100000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v61).slice (win3_2.rect t)).set ↔ _
  rw [View.set_slice_whole, Rect.mem_set_unit]
  exact Iff.rfl

/-- Every row of the result lies in the block of the point numbered by the row divided by 2000. -/
theorem cover3 (i : S100000x256.Idx) : ∃ t : Fin cfg3.N, (cfg3.win 2).flush t = true ∧ i ∈ ((cfg3.win 2).blk t).view.set := by
  have hi0 : (i 0).val < 100000 := (i 0).isLt
  have hi1 : (i 1).val < 256 := (i 1).isLt
  have hN : cfg3.N = 50 := N_3
  have ht : (i 0).val / 2000 < cfg3.N := by rw [hN]; omega
  obtain ⟨-, -, -, -, e4, e5⟩ := idx_facts3 ⟨(i 0).val / 2000, ht⟩
  refine ⟨⟨(i 0).val / 2000, ht⟩, flush3_2 _, ?_⟩
  rw [mem_blk3]
  intro a
  match a with
  | ⟨0, _⟩ =>
    show win3_2.index ⟨(i 0).val / 2000, ht⟩ 0 * 2000 ≤ (i 0).val ∧ (i 0).val < win3_2.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win3_2.index ⟨(i 0).val / 2000, ht⟩ 1 * 256 ≤ (i 1).val ∧ (i 1).val < win3_2.index ⟨(i 0).val / 2000, ht⟩ 1 * 256 + 256
    rw [e5]; omega

/-- The result array after the launch is the bias-and-clamp of the two operand arrays as the launch finds them. -/
theorem final3 (c : Dev nD) : (dat3 V c).arrAt 2 cfg3.N = biasClamp (V c main_v59) (V c main_v60) :=
  (dat3 V c).arrAt_eq_of_cover 2 (biasClamp (V c main_v59) (V c main_v60)) (fun t _ => flushed3_eq V c t) cover3

end Launch

end Cert.KernelIdeal.Launches

end
-- ==== Proof.Layer2.lean ====
/-
  Layer 2 of the idealized kernel, boundary by boundary, against the reference's stages.

  The product launch leaves the rows of its input times the weight matrix; the host stretch after it gathers the rows at
  the source indices, scales each by its edge weight and scatter-adds them at the destination indices, and reshapes
  the bias to one row; the bias launch adds that row to every row and clamps at zero. The host operations are the
  reference's own, applied to arrays already known to be the reference's stages, so each result is the next stage.
-/
import proofs.«170027_j4913442587201_1_alg».proof.Proof.Layer1
import proofs.«170027_j4913442587201_1_alg».proof.Proof.Mat2
import proofs.«170027_j4913442587201_1_alg».proof.Proof.Bias3

set_option maxRecDepth 16384

noncomputable section

namespace Cert.KernelIdeal.Chain

open Cert.KernelIdeal Cert.KernelIdeal.Gen Cert.KernelIdeal.Launches
open Idealize.ShloMosaic Idealize.ShloMosaic.TcCoe Idealize.SL.Sem Idealize.ShloMosaic.StableHlo

variable (m : (ℓ : Loc nD τ sig) → Buf (Elt Ideal) ℓ) (ρ : Dev nD → PrngReg)

/-- After the product launch of layer 2 its result array is the reference's product stage. -/
theorem prod2 (c : Dev nD) : W7 m ρ c (Proc.devRef .tc main_v46) = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W7_arr m ρ c 2).trans ?_
  rw [final2 (V6 m ρ) c]
  show rowsTimes256 (W6 m ρ c (Proc.devRef .tc main_v45)) (W6 m ρ c (Proc.devRef .tc main_arg4)) = _
  rw [clamp1, (kept6 m ρ c).a4]
  exact (ref_prod2 _ _ _ _ _).symm

/-- After the host stretch of layer 2 the aggregated array is the reference's scatter-add stage. -/
theorem agg2 (c : Dev nD) : W8 m ρ c (Proc.devRef .tc main_v59) = Cert.ReferenceIdeal.ReadP.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h := kept7 m ρ c
  show StableHlo.after hostOps3 (W7 m ρ c) (Proc.devRef .tc main_v59) = _
  simp only [hostOps3]
  after_results_simp
  rw [prod2 m ρ c, h.src, h.dst, h.wgt]
  rfl

/-- After the host stretch of layer 2 the one-row bias array is the bias argument reshaped. -/
theorem biasRow2 (c : Dev nD) : W8 m ρ c (Proc.devRef .tc main_v60) = shapeCast S1x256 (m ((c.tc : Thread nD τ).loc main_arg5)) shapeCasts_S256_S1x256 := by
  have h := kept7 m ρ c
  show StableHlo.after hostOps3 (W7 m ρ c) (Proc.devRef .tc main_v60) = _
  simp only [hostOps3]
  after_results_simp
  rw [h.a5]
  rfl

/-- After the bias launch of layer 2 its result array is the reference's clamp stage. -/
theorem clamp2 (c : Dev nD) : W9 m ρ c (Proc.devRef .tc main_v61) = Cert.ReferenceIdeal.ReadP.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W9_arr m ρ c 2).trans ?_
  rw [final3 (V8 m ρ) c]
  show biasClamp (W8 m ρ c (Proc.devRef .tc main_v59)) (W8 m ρ c (Proc.devRef .tc main_v60)) = _
  rw [agg2, biasRow2]
  exact (ref_bias2 _ _ _ _ _ _).symm

end Cert.KernelIdeal.Chain

end
-- ==== Proof.Mat4.lean ====
/-
  Launch 4, a matrix-product launch, read as one function of its operand arrays at the ideal instance.

  The launch walks the 100000 rows in 50 blocks of 2000. At a block the body loads the block of the row array and the
  whole 256 × 256 matrix, changes both to a narrower float format — the identity on extended reals —, and multiplies them
  into a zero accumulator; the block is written back over the same rows of the result array. Entry (p, q) of a block
  is the sum over k of the row block at (p, k) times the matrix at (k, q): a sum over the contracted index alone, so
  the blocks are the restrictions of one whole-array product of rows, and since the 50 blocks cover every row the
  result array is that product.
-/
import proofs.«170027_j4913442587201_1_alg».proof.Proof.Gen.KernelIdeal.Frame
import proofs.«170027_j4913442587201_1_alg».proof.Proof.Spec
import Idealize.ShloMosaic.Lib.Pipeline.Value
import Idealize.ShloMosaic.Lib.ValueIdx
import Idealize.ShloMosaic.PureOps.Ideal.Laws

noncomputable section

namespace Cert.KernelIdeal.Launches

open Cert.KernelIdeal Cert.KernelIdeal.Gen
open Idealize.ShloMosaic Idealize.ShloMosaic.TcCoe Idealize.SL.Sem Idealize.ShloMosaic.ValueIdx
open Idealize.ShloMosaic.Pipeline (Dat)

/-! The operand coordinates of the block product: at output index (r, c) and contracted index k the left operand is
    read at (r, k) and the right at (k, c). -/

theorem lhs4_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs4_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs4_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs4_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- What the body stores at row `p`, column `q` of a block: the sum over `k` of the loaded row block at (p, k) times the
    loaded matrix at (k, q) — the change of float format is the identity and the accumulator is zero. -/
theorem pay4_apply (x0 : Vec Ideal S2000x256 .f32) (x1 : Vec Ideal S256x256 .f32) (p : Fin 2000) (q : Fin 256) :
    k4_pay1 x0 x1 (ix2 p q) = ∑ k : Fin 256, x0 (ix2 p k) * x1 (ix2 k q) := by
  unfold k4_pay1
  rw [shapeCast_self]
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs4_0 _ _
    | ⟨1, _⟩ => exact (lhs4_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs4_0 _ _).trans hk
    | ⟨1, _⟩ => exact rhs4_1 _ _)
  rw [el, er]
  rfl

section Launch

variable (V : (c : Dev nD) → (b : Ref sig .tc) → Buf (Elt Ideal) ((c : Thread nD τ).loc b))

/-- The printed index maps over the grid: at point `t` the row array's block and the result's block are block `t` of
    the rows, and the matrix's one block is the whole of it. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row `p`, column `k` of the row array's block at point `t` is the array at row `2000 t + p`, column `k`. -/
theorem rows4_apply (c : Dev nD) (t : Fin cfg4.N) (p : Fin 2000) (k : Fin 256) (j : S100000x256.Idx)
    (hj0 : (j 0).val = t.val * 2000 + p.val) (hj1 : (j 1).val = k.val) :
    iblk4 V c 0 t (ix2 p k) = V c main_v61 j := by
  obtain ⟨e0, e1, -, -, -, -⟩ := idx_facts4 t
  unfold iblk4
  rw [View.read_apply]
  show V c main_v61 _ = V c main_v61 j
  refine congrArg (V c main_v61) (funext fun a => Fin.ext ?_)
  match a with
  | ⟨0, _⟩ => show win4_0.index t 0 * 2000 + 1 * p.val = (j 0).val; rw [e0, hj0]; omega
  | ⟨1, _⟩ => show win4_0.index t 1 * 256 + 1 * k.val = (j 1).val; rw [e1, hj1]; omega

/-- Row `k`, column `q` of the matrix's block at any point is the matrix at (k, q). -/
theorem mat4_apply (c : Dev nD) (t : Fin cfg4.N) (k : Fin 256) (q : Fin 256) (j : S256x256.Idx)
    (hj0 : (j 0).val = k.val) (hj1 : (j 1).val = q.val) :
    iblk4 V c 1 t (ix2 k q) = V c main_arg6 j := by
  obtain ⟨-, -, e2, e3, -, -⟩ := idx_facts4 t
  unfold iblk4
  rw [View.read_apply]
  show V c main_arg6 _ = V c main_arg6 j
  refine congrArg (V c main_arg6) (funext fun a => Fin.ext ?_)
  match a with
  | ⟨0, _⟩ => show win4_1.index t 0 * 256 + 1 * k.val = (j 0).val; rw [e2, hj0]; omega
  | ⟨1, _⟩ => show win4_1.index t 1 * 256 + 1 * q.val = (j 1).val; rw [e3, hj1]; omega

/-- What point `t` writes back is block `t` of the rows of the first operand times the second, as the launch finds them. -/
theorem flushed4_eq (c : Dev nD) (t : Fin cfg4.N) :
    (dat4 V c).flushed 2 t = ((cfg4.win 2).blk t).view.read (Elt Ideal) (rowsTimes256 (V c main_v61) (V c main_arg6)) := by
  show (cfg4.win 2).cut (grid4.coords t) ((dat4 V c).after 2 t) = _
  rw [after4_2]
  unfold out4_2
  rw [View.canon_unit_zero hz]
  simp only [View.ld_unit_zero (S := S2000x256) hz, View.ld_unit_zero (S := S256x256) hz]
  obtain ⟨-, -, -, -, e4, e5⟩ := idx_facts4 t
  funext j
  obtain ⟨p, q, rfl⟩ : ∃ (p : Fin 2000) (q : Fin 256), j = ix2 p q := ⟨j 0, j 1, eq_ix2 j⟩
  refine (pay4_apply (iblk4 V c 0 t) (iblk4 V c 1 t) p q).trans ?_
  rw [View.read_apply]
  have hE0 : ((((cfg4.win 2).blk t).view.emb (ix2 p q)) 0).val = t.val * 2000 + p.val := by
    show win4_2.index t 0 * 2000 + 1 * p.val = _; rw [e4]; omega
  have hE1 : ((((cfg4.win 2).blk t).view.emb (ix2 p q)) 1).val = q.val := by
    show win4_2.index t 1 * 256 + 1 * q.val = _; rw [e5]; omega
  unfold rowsTimes256
  refine Finset.sum_congr rfl fun k _ => ?_
  exact congrArg₂ (fun a b : EReal => a * b) (rows4_apply V c t p k _ hE0 rfl) (mat4_apply V c t k q _ rfl hE1)

/-- An index of the result array is in point `t`'s block iff each coordinate is in the block's range on its axis. -/
theorem mem_blk4 (t : Fin cfg4.N) (i : S100000x256.Idx) :
    i ∈ ((cfg4.win 2).blk t).view.set ↔ ∀ a : Fin 2, win4_2.index t a * S2000x256.size a ≤ (i a).val ∧ (i a).val < win4_2.index t a * S2000x256.size a + S2000x256.size a := by
  show i ∈ ((View.whole main_v62).slice (win4_2.rect t)).set ↔ _
  rw [View.set_slice_whole, Rect.mem_set_unit]
  exact Iff.rfl

/-- Every row of the result lies in the block of the point numbered by the row divided by 2000. -/
theorem cover4 (i : S100000x256.Idx) : ∃ t : Fin cfg4.N, (cfg4.win 2).flush t = true ∧ i ∈ ((cfg4.win 2).blk t).view.set := by
  have hi0 : (i 0).val < 100000 := (i 0).isLt
  have hi1 : (i 1).val < 256 := (i 1).isLt
  have hN : cfg4.N = 50 := N_4
  have ht : (i 0).val / 2000 < cfg4.N := by rw [hN]; omega
  obtain ⟨-, -, -, -, e4, e5⟩ := idx_facts4 ⟨(i 0).val / 2000, ht⟩
  refine ⟨⟨(i 0).val / 2000, ht⟩, flush4_2 _, ?_⟩
  rw [mem_blk4]
  intro a
  match a with
  | ⟨0, _⟩ =>
    show win4_2.index ⟨(i 0).val / 2000, ht⟩ 0 * 2000 ≤ (i 0).val ∧ (i 0).val < win4_2.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win4_2.index ⟨(i 0).val / 2000, ht⟩ 1 * 256 ≤ (i 1).val ∧ (i 1).val < win4_2.index ⟨(i 0).val / 2000, ht⟩ 1 * 256 + 256
    rw [e5]; omega

/-- The result array after the launch is the rows of the first operand times the second, as the launch finds them. -/
theorem final4 (c : Dev nD) : (dat4 V c).arrAt 2 cfg4.N = rowsTimes256 (V c main_v61) (V c main_arg6) :=
  (dat4 V c).arrAt_eq_of_cover 2 (rowsTimes256 (V c main_v61) (V c main_arg6)) (fun t _ => flushed4_eq V c t) cover4

end Launch

end Cert.KernelIdeal.Launches

end
-- ==== Proof.Bias5.lean ====
/-
  Launch 5, a bias-and-clamp launch, read as one function of its operand arrays.

  The launch walks the 100000 rows in 50 blocks of 2000. At a block the body loads the block of the row array and the
  whole one-row bias array, adds the bias row to every row of the block and takes the maximum with zero; the block is
  written back over the same rows of the result array. Each element of the result depends only on the element of the
  row array at the same index and on the bias at the same column, so the blocks are the restrictions of one
  whole-array function, and since the 50 blocks cover every row the result array is that function.
-/
import proofs.«170027_j4913442587201_1_alg».proof.Proof.Gen.KernelIdeal.Frame
import proofs.«170027_j4913442587201_1_alg».proof.Proof.Spec
import Idealize.ShloMosaic.Lib.Pipeline.Value
import Idealize.ShloMosaic.Lib.ValueIdx
import Idealize.ShloMosaic.Lib.ValueLayout

noncomputable section

namespace Cert.KernelIdeal.Launches

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

/-- What the body stores at row `p`, column `q` of a block: the loaded element plus the bias at column `q`, clamped. -/
theorem pay5_apply (x0 : Vec F S2000x256 .f32) (x1 : Vec F S1x256 .f32) (p : Fin 2000) (q : Fin 256) :
    k5_pay1 x0 x1 (ix2 p q) = FloatOps.maximumf (FloatOps.addf (x0 (ix2 p q)) (x1 (ix2 (0 : Fin 1) q))) (FloatOps.ofBits .f32 0x00000000#32) := by
  unfold k5_pay1
  rw [shapeCast_self, shapeCast_self]
  show FloatOps.maximumf (FloatOps.addf (x0 (ix2 p q)) (broadcastTo S2000x256 x1 broadcasts_S1x256_S2000x256 (ix2 p q))) _ = _
  rw [broadcastTo_apply x1 broadcasts_S1x256_S2000x256 (ix2 p q) (ix2 (0 : Fin 1) q) (fun a => match a with
    | ⟨0, _⟩ => by show 0 = if (1 : Nat) = 1 then 0 else _; rw [if_pos rfl]
    | ⟨1, _⟩ => by show q.val = if (256 : Nat) = 1 then 0 else q.val; rw [if_neg (by decide)])]
  rfl

section Launch

variable (V : (c : Dev nD) → (b : Ref sig .tc) → Buf (Elt F) ((c : Thread nD τ).loc b))

/-- The printed index maps over the grid: at point `t` the row array's block and the result's block are block `t` of
    the rows, and the bias array's one block is the whole of it. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row `p`, column `q` of the row array's block at point `t` is the array at row `2000 t + p`, column `q`. -/
theorem rows5_apply (c : Dev nD) (t : Fin cfg5.N) (p : Fin 2000) (q : Fin 256) (k : S100000x256.Idx)
    (hk0 : (k 0).val = t.val * 2000 + p.val) (hk1 : (k 1).val = q.val) :
    iblk5 V c 0 t (ix2 p q) = V c main_v75 k := by
  obtain ⟨e0, e1, -, -, -, -⟩ := idx_facts5 t
  unfold iblk5
  rw [View.read_apply]
  show V c main_v75 _ = V c main_v75 k
  refine congrArg (V c main_v75) (funext fun a => Fin.ext ?_)
  match a with
  | ⟨0, _⟩ => show win5_0.index t 0 * 2000 + 1 * p.val = (k 0).val; rw [e0, hk0]; omega
  | ⟨1, _⟩ => show win5_0.index t 1 * 256 + 1 * q.val = (k 1).val; rw [e1, hk1]; omega

/-- Column `q` of the bias array's block at any point is the bias array at column `q`. -/
theorem bias5_apply (c : Dev nD) (t : Fin cfg5.N) (q : Fin 256) (k : S1x256.Idx)
    (hk0 : (k 0).val = 0) (hk1 : (k 1).val = q.val) :
    iblk5 V c 1 t (ix2 (0 : Fin 1) q) = V c main_v76 k := by
  obtain ⟨-, -, e2, e3, -, -⟩ := idx_facts5 t
  unfold iblk5
  rw [View.read_apply]
  show V c main_v76 _ = V c main_v76 k
  refine congrArg (V c main_v76) (funext fun a => Fin.ext ?_)
  match a with
  | ⟨0, _⟩ => show win5_1.index t 0 * 1 + 1 * 0 = (k 0).val; rw [e2, hk0]
  | ⟨1, _⟩ => show win5_1.index t 1 * 256 + 1 * q.val = (k 1).val; rw [e3, hk1]; omega

/-- What point `t` writes back is block `t` of the bias-and-clamp of the two operand arrays as the launch finds them. -/
theorem flushed5_eq (c : Dev nD) (t : Fin cfg5.N) :
    (dat5 V c).flushed 2 t = ((cfg5.win 2).blk t).view.read (Elt F) (biasClamp (V c main_v75) (V c main_v76)) := by
  show (cfg5.win 2).cut (grid5.coords t) ((dat5 V c).after 2 t) = _
  rw [after5_2]
  unfold out5_2
  rw [View.canon_unit_zero hz]
  simp only [View.ld_unit_zero (S := S2000x256) hz, View.ld_unit_zero (S := S1x256) hz]
  obtain ⟨-, -, -, -, e4, e5⟩ := idx_facts5 t
  funext j
  obtain ⟨p, q, rfl⟩ : ∃ (p : Fin 2000) (q : Fin 256), j = ix2 p q := ⟨j 0, j 1, eq_ix2 j⟩
  refine (pay5_apply (iblk5 V c 0 t) (iblk5 V c 1 t) p q).trans ?_
  rw [View.read_apply]
  have hE0 : ((((cfg5.win 2).blk t).view.emb (ix2 p q)) 0).val = t.val * 2000 + p.val := by
    show win5_2.index t 0 * 2000 + 1 * p.val = _; rw [e4]; omega
  have hE1 : ((((cfg5.win 2).blk t).view.emb (ix2 p q)) 1).val = q.val := by
    show win5_2.index t 1 * 256 + 1 * q.val = _; rw [e5]; omega
  unfold biasClamp
  exact congrArg₂ (fun a b => FloatOps.maximumf (FloatOps.addf a b) (FloatOps.ofBits .f32 0x00000000#32))
    (rows5_apply V c t p q _ hE0 hE1) (bias5_apply V c t q _ rfl hE1)

/-- An index of the result array is in point `t`'s block iff each coordinate is in the block's range on its axis. -/
theorem mem_blk5 (t : Fin cfg5.N) (i : S100000x256.Idx) :
    i ∈ ((cfg5.win 2).blk t).view.set ↔ ∀ a : Fin 2, win5_2.index t a * S2000x256.size a ≤ (i a).val ∧ (i a).val < win5_2.index t a * S2000x256.size a + S2000x256.size a := by
  show i ∈ ((View.whole main_v77).slice (win5_2.rect t)).set ↔ _
  rw [View.set_slice_whole, Rect.mem_set_unit]
  exact Iff.rfl

/-- Every row of the result lies in the block of the point numbered by the row divided by 2000. -/
theorem cover5 (i : S100000x256.Idx) : ∃ t : Fin cfg5.N, (cfg5.win 2).flush t = true ∧ i ∈ ((cfg5.win 2).blk t).view.set := by
  have hi0 : (i 0).val < 100000 := (i 0).isLt
  have hi1 : (i 1).val < 256 := (i 1).isLt
  have hN : cfg5.N = 50 := N_5
  have ht : (i 0).val / 2000 < cfg5.N := by rw [hN]; omega
  obtain ⟨-, -, -, -, e4, e5⟩ := idx_facts5 ⟨(i 0).val / 2000, ht⟩
  refine ⟨⟨(i 0).val / 2000, ht⟩, flush5_2 _, ?_⟩
  rw [mem_blk5]
  intro a
  match a with
  | ⟨0, _⟩ =>
    show win5_2.index ⟨(i 0).val / 2000, ht⟩ 0 * 2000 ≤ (i 0).val ∧ (i 0).val < win5_2.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win5_2.index ⟨(i 0).val / 2000, ht⟩ 1 * 256 ≤ (i 1).val ∧ (i 1).val < win5_2.index ⟨(i 0).val / 2000, ht⟩ 1 * 256 + 256
    rw [e5]; omega

/-- The result array after the launch is the bias-and-clamp of the two operand arrays as the launch finds them. -/
theorem final5 (c : Dev nD) : (dat5 V c).arrAt 2 cfg5.N = biasClamp (V c main_v75) (V c main_v76) :=
  (dat5 V c).arrAt_eq_of_cover 2 (biasClamp (V c main_v75) (V c main_v76)) (fun t _ => flushed5_eq V c t) cover5

end Launch

end Cert.KernelIdeal.Launches

end
-- ==== Proof.Layer3.lean ====
/-
  Layer 3 of the idealized kernel, boundary by boundary, against the reference's stages.

  The product launch leaves the rows of its input times the weight matrix; the host stretch after it gathers the rows at
  the source indices, scales each by its edge weight and scatter-adds them at the destination indices, and reshapes
  the bias to one row; the bias launch adds that row to every row and clamps at zero. The host operations are the
  reference's own, applied to arrays already known to be the reference's stages, so each result is the next stage.
-/
import proofs.«170027_j4913442587201_1_alg».proof.Proof.Layer2
import proofs.«170027_j4913442587201_1_alg».proof.Proof.Mat4
import proofs.«170027_j4913442587201_1_alg».proof.Proof.Bias5

set_option maxRecDepth 16384

noncomputable section

namespace Cert.KernelIdeal.Chain

open Cert.KernelIdeal Cert.KernelIdeal.Gen Cert.KernelIdeal.Launches
open Idealize.ShloMosaic Idealize.ShloMosaic.TcCoe Idealize.SL.Sem Idealize.ShloMosaic.StableHlo

variable (m : (ℓ : Loc nD τ sig) → Buf (Elt Ideal) ℓ) (ρ : Dev nD → PrngReg)

/-- After the product launch of layer 3 its result array is the reference's product stage. -/
theorem prod3 (c : Dev nD) : W10 m ρ c (Proc.devRef .tc main_v62) = Cert.ReferenceIdeal.ReadP.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W10_arr m ρ c 2).trans ?_
  rw [final4 (V9 m ρ) c]
  show rowsTimes256 (W9 m ρ c (Proc.devRef .tc main_v61)) (W9 m ρ c (Proc.devRef .tc main_arg6)) = _
  rw [clamp2, (kept9 m ρ c).a6]
  exact (ref_prod3 _ _ _ _ _ _ _).symm

/-- After the host stretch of layer 3 the aggregated array is the reference's scatter-add stage. -/
theorem agg3 (c : Dev nD) : W11 m ρ c (Proc.devRef .tc main_v75) = Cert.ReferenceIdeal.ReadP.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have h := kept10 m ρ c
  show StableHlo.after hostOps5 (W10 m ρ c) (Proc.devRef .tc main_v75) = _
  simp only [hostOps5]
  after_results_simp
  rw [prod3 m ρ c, h.src, h.dst, h.wgt]
  rfl

/-- After the host stretch of layer 3 the one-row bias array is the bias argument reshaped. -/
theorem biasRow3 (c : Dev nD) : W11 m ρ c (Proc.devRef .tc main_v76) = shapeCast S1x256 (m ((c.tc : Thread nD τ).loc main_arg7)) shapeCasts_S256_S1x256 := by
  have h := kept10 m ρ c
  show StableHlo.after hostOps5 (W10 m ρ c) (Proc.devRef .tc main_v76) = _
  simp only [hostOps5]
  after_results_simp
  rw [h.a7]
  rfl

/-- After the bias launch of layer 3 its result array is the reference's clamp stage. -/
theorem clamp3 (c : Dev nD) : W12 m ρ c (Proc.devRef .tc main_v77) = Cert.ReferenceIdeal.ReadP.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W12_arr m ρ c 2).trans ?_
  rw [final5 (V11 m ρ) c]
  show biasClamp (W11 m ρ c (Proc.devRef .tc main_v75)) (W11 m ρ c (Proc.devRef .tc main_v76)) = _
  rw [agg3, biasRow3]
  exact (ref_bias3 _ _ _ _ _ _ _ _).symm

end Cert.KernelIdeal.Chain

end
-- ==== Proof.lean ====
/-
  Three layers of graph convolution — node features times a weight matrix, gathered along the edges, scaled by the
  symmetric degree normalization, scatter-added at the destinations, plus a bias, clamped below at zero — computed by
  six tiled kernel launches among host operations, against the same computation written with host operations only.

  The two programs apply the same host operations to the edge list and to the gathered rows, literal by literal. They
  differ in two places per layer. The product: the kernel multiplies 2000-row blocks of the features, in a narrower
  float format, by the whole weight matrix into a zero accumulator, where the reference contracts the whole arrays;
  on extended reals the change of format is the identity and both are, entry by entry, the sum over the contracted
  index of the products — a sum in a commutative monoid, so no finiteness of the inputs is used. The bias: the kernel
  adds a one-row reshape of the bias to every row of a block and takes the maximum with zero, where the reference
  broadcasts the bias and clamps the whole array; entry by entry both are the element plus the bias of its column,
  clamped. Blocks of rows cover the arrays exactly, so each launch leaves one whole-array function of its operands,
  and the kernel's result is the reference's last stage of the same arguments.

  The frames: the two kernel programs' are their runs with the results dropped; the reference's is its run read back.
  The idealization rewrote no operation, so there is nothing to preserve.
-/
import proofs.«170027_j4913442587201_1_alg».proof.Defs
import proofs.«170027_j4913442587201_1_alg».proof.Proof.Gen.Kernel
import proofs.«170027_j4913442587201_1_alg».proof.Proof.Gen.Kernel.Frame
import proofs.«170027_j4913442587201_1_alg».proof.Proof.Gen.KernelIdeal
import proofs.«170027_j4913442587201_1_alg».proof.Proof.Gen.KernelIdeal.Frame
import proofs.«170027_j4913442587201_1_alg».proof.Proof.Gen.ReferenceIdeal
import proofs.«170027_j4913442587201_1_alg».proof.Proof.Gen.Pre_finite_inputs
import proofs.«170027_j4913442587201_1_alg».proof.Proof.RefRead
import proofs.«170027_j4913442587201_1_alg».proof.Proof.KernelRun
import proofs.«170027_j4913442587201_1_alg».proof.Proof.Layer3
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both idealized programs end with the same result array: the kernel's
    last boundary holds, at its result buffer, the reference's last stage of the arguments. -/
theorem algebraic : Cert.algebraic_KernelIdeal_ReferenceIdeal := by
  intro m ρ m' ρ' _ hagree
  refine ⟨fun c => Cert.KernelIdeal.Gen.W12 m ρ c (Proc.devRef .tc Cert.KernelIdeal.main_v77),
    Cert.KernelIdeal.Run.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7⟩ := hagree c
  rw [Cert.ReferenceIdeal.ReadP.val_main_v83_eq, e0, e1, e2, e3, e4, e5, e6, e7]
  exact (Cert.KernelIdeal.Chain.clamp3 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
